-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1x64 : Shape := ⟨2, ![1, 64]⟩
abbrev S50000x64 : Shape := ⟨2, ![50000, 64]⟩
abbrev S10000x128 : Shape := ⟨2, ![10000, 128]⟩
abbrev S10000x64 : Shape := ⟨2, ![10000, 64]⟩
abbrev S1600000x64 : Shape := ⟨2, ![1600000, 64]⟩
abbrev S50000x1 : Shape := ⟨2, ![50000, 1]⟩
abbrev S10000x1 : Shape := ⟨2, ![10000, 1]⟩
abbrev S1x32 : Shape := ⟨2, ![1, 32]⟩
abbrev S50000x32 : Shape := ⟨2, ![50000, 32]⟩
abbrev S10000x32 : Shape := ⟨2, ![10000, 32]⟩
abbrev S1600000x32 : Shape := ⟨2, ![1600000, 32]⟩
abbrev S1x1 : Shape := ⟨2, ![1, 1]⟩

abbrev nBuf : Space → Nat
  | .hbm => 92
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S64, .f32⟩
  | .hbm, ⟨46, _⟩ => ⟨S1x64, .f32⟩
  | .hbm, ⟨47, _⟩ => ⟨S50000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1600000x1, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S50000x64, .f32⟩
  | .hbm, ⟨62, _⟩ => ⟨S1600000x1, .i32⟩
  | .hbm, ⟨63, _⟩ => ⟨S50000x64, .f32⟩
  | .hbm, ⟨64, _⟩ => ⟨S1x64, .f32⟩
  | .hbm, ⟨65, _⟩ => ⟨S50000x1, .f32⟩
  | .hbm, ⟨66, _⟩ => ⟨S50000x64, .f32⟩
  | .hbm, ⟨67, _⟩ => ⟨S_, .f32⟩
  | .hbm, ⟨68, _⟩ => ⟨S32, .f32⟩
  | .hbm, ⟨69, _⟩ => ⟨S1x32, .f32⟩
  | .hbm, ⟨70, _⟩ => ⟨S50000x32, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x32, .f32⟩
  | .hbm, ⟨80, _⟩ => ⟨S1600000x1, .f32⟩
  | .hbm, ⟨81, _⟩ => ⟨S1600000x32, .f32⟩
  | .hbm, ⟨82, _⟩ => ⟨S1600000x32, .f32⟩
  | .hbm, ⟨83, _⟩ => ⟨S_, .f32⟩
  | .hbm, ⟨84, _⟩ => ⟨S50000x32, .f32⟩
  | .hbm, ⟨85, _⟩ => ⟨S1600000x1, .i32⟩
  | .hbm, ⟨86, _⟩ => ⟨S50000x32, .f32⟩
  | .hbm, ⟨87, _⟩ => ⟨S1x32, .f32⟩
  | .hbm, ⟨88, _⟩ => ⟨S50000x1, .f32⟩
  | .hbm, ⟨89, _⟩ => ⟨S50000x32, .f32⟩
  | .hbm, ⟨90, _⟩ => ⟨S1x1, .f32⟩
  | .hbm, ⟨91, _⟩ => ⟨S50000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x32, .f32⟩
  | .local _ .vmem, ⟨18, _⟩ => ⟨S1x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x1, .f32⟩
  | .local _ .vmem, ⟨26, _⟩ => ⟨S10000x1, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S32x1, .f32⟩
  | .local _ .vmem, ⟨33, _⟩ => ⟨S1x1, .f32⟩
  | .local _ .vmem, ⟨34, _⟩ => ⟨S10000x1, .f32⟩
  | .local _ .vmem, ⟨35, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S64 : S_.BroadcastsInDim S64 (![] : Fin 0 → Fin S64.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S50000_S50000x1 : S50000.ShapeCasts S50000x1
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S32 : S_.BroadcastsInDim S32 (![] : Fin 0 → Fin S32.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  shapeCasts_S10000x32_S10000x32 : S10000x32.ShapeCasts S10000x32
  broadcasts_S10000x1_S10000x32 : S10000x1.Broadcasts S10000x32
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S10000x128_S128x64_S10000x64_1_0_0_1_n_n_wf : DotDims.WF S10000x128 S128x64 S10000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S10000x64_S64x32_S10000x32_1_0_0_1_n_n_wf : DotDims.WF S10000x64 S64x32 S10000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S50000x32.size a
  hwx2_3 : ∀ i : grid2.Coords, EltTy.bits .f32 = 32 ∨ (Rect.block (s := S50000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S50000x32.size a
  hwx3_0 : ∀ i : grid3.Coords, EltTy.bits .f32 = 32 ∨ (Rect.block (s := S50000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S50000x32.size a
  hwx3_1 : ∀ i : grid3.Coords, EltTy.bits .f32 = 32 ∨ (Rect.block (s := S50000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x32.size a ≤ S50000x32.size a
  hwx3_4 : ∀ i : grid3.Coords, EltTy.bits .f32 = 32 ∨ (Rect.block (s := S50000x32) S10000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S50000x32.size a
  hwx4_0 : ∀ i : grid4.Coords, EltTy.bits .f32 = 32 ∨ (Rect.block (s := S50000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S50000x1.size a
  hwx4_3 : ∀ i : grid4.Coords, EltTy.bits .f32 = 32 ∨ (Rect.block (s := S50000x1) S10000x1.size (cc4_transform_3 i) (hinb4_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S10000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S50000x64 : Shape := ⟨2, ![50000, 64]⟩
abbrev S_ : Shape := ⟨0, ![]⟩
abbrev S50000 : Shape := ⟨1, ![50000]⟩
abbrev S1600000x1 : Shape := ⟨2, ![1600000, 1]⟩
abbrev S1600000x64 : Shape := ⟨2, ![1600000, 64]⟩
abbrev S50000x1 : Shape := ⟨2, ![50000, 1]⟩
abbrev S1x64 : Shape := ⟨2, ![1, 64]⟩
abbrev S50000x32 : Shape := ⟨2, ![50000, 32]⟩
abbrev S1600000x32 : Shape := ⟨2, ![1600000, 32]⟩
abbrev S1x32 : Shape := ⟨2, ![1, 32]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S50000x64, .f32⟩
  | 13 => ⟨S_, .f32⟩
  | 14 => ⟨S1600000, .f32⟩
  | 15 => ⟨S_, .f32⟩
  | 16 => ⟨S50000, .f32⟩
  | 17 => ⟨S1600000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x1, .f32⟩
  | 54 => ⟨S1600000x64, .f32⟩
  | 55 => ⟨S1600000x64, .f32⟩
  | 56 => ⟨S_, .f32⟩
  | 57 => ⟨S50000x64, .f32⟩
  | 58 => ⟨S1600000x1, .i32⟩
  | 59 => ⟨S50000x64, .f32⟩
  | 60 => ⟨S50000, .f32⟩
  | 61 => ⟨S50000x1, .f32⟩
  | 62 => ⟨S50000x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x32, .f32⟩
  | 72 => ⟨S_, .f32⟩
  | 73 => ⟨S1600000, .f32⟩
  | 74 => ⟨S_, .f32⟩
  | 75 => ⟨S50000, .f32⟩
  | 76 => ⟨S1600000x1, .i32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x32, .f32⟩
  | 112 => ⟨S1600000x1, .f32⟩
  | 113 => ⟨S1600000x32, .f32⟩
  | 114 => ⟨S1600000x32, .f32⟩
  | 115 => ⟨S_, .f32⟩
  | 116 => ⟨S50000x32, .f32⟩
  | 117 => ⟨S1600000x1, .i32⟩
  | 118 => ⟨S50000x32, .f32⟩
  | 119 => ⟨S50000, .f32⟩
  | 120 => ⟨S50000x1, .f32⟩
  | 121 => ⟨S50000x32, .f32⟩
  | 122 => ⟨S50000x32, .f32⟩
  | 123 => ⟨S50000x32, .f32⟩
  | 124 => ⟨S1x32, .f32⟩
  | 125 => ⟨S50000x32, .f32⟩
  | 126 => ⟨S50000x32, .f32⟩
  | 127 => ⟨S_, .f32⟩
  | _ => ⟨S50000x128, .f32⟩

abbrev hbmTy0_1 (i : Nat) : BufTy := match i % 128 with
  | 0 => ⟨S50000x32, .f32⟩
  | 1 => ⟨S50000x32, .f32⟩
  | 2 => ⟨S50000x1, .f32⟩
  | 3 => ⟨S1x1, .f32⟩
  | 4 => ⟨S50000x1, .f32⟩
  | 5 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x64_S50000x64_1_0_0_1_n_n_wf : DotDims.WF S50000x128 S128x64 S50000x64 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x32_S50000x32_1_0_0_1_n_n_wf : DotDims.WF S50000x64 S64x32 S50000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x32_S32x1_S50000x1_1_0_0_1_n_n_wf : DotDims.WF S50000x32 S32x1 S50000x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KernelRun.lean ====
/-
  The idealized kernel's run with its whole final valuation in the post.

  The generated frame of this five-region program keeps, of the last boundary's contents `Gen.W10`, only the
  argument arrays. The value claim needs the result array as well, so the launch over the ten segments is stated
  here once more with the strongest post the chain gives: every unscoped buffer of every core ends at `Gen.W10`.
  Everything else about the final state (the result array, the unchanged arguments) is read off this one run.
-/
import proofs.«123351_j43473658970188_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends
    at the last boundary's contents: the five regions' write-backs folded through the five host stretches. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- A TensorCore buffer that no scope owns ends at the last boundary's contents. -/
theorem final_at {r : PUnit × MemSt nD τ sig (Elt F)} (h : ∀ c : Dev nD, ∀ b ∈ Pipeline.ucRefs τ sig, r.2.mem (((c : Thread nD τ)).1, b) = W10 m ρ c b)
    (c : Dev nD) (b : Ref sig .tc) (hb : ¬ (Proc.devRef .tc b : DevRef τ sig).isScoped) :
    r.2.mem ((c.tc : Thread nD τ).loc b) = W10 m ρ c (Proc.devRef .tc b) :=
  h c _ (mem_uc b hb)

end Cert.KernelIdeal.RunValue

end
-- ==== Proof.Transform1.lean ====
/-
  The first feature transform: the array region 0 leaves is x · W1.

  The region runs the linear body over five row blocks of 10000 rows. At an entry (p, q) of a block the body leaves
      (∑ k, x(p, k) · w(k, q)) + b(0, q),
  the matrix product into a zero accumulator (a change of float format is the identity on extended reals) plus the
  bias row. Block t of the row-blocked operand is rows 10000·t … 10000·t + 9999 of its array, the weight and the bias row are
  whole, and the five output blocks tile the result array; so the array the region leaves is, index by index,
      (∑ k, X(r, k) · W(k, q)) + B(0, q)
  of the arrays X, W, B it was entered with: with the zero row for B, the reference's product of the node features and the first weight.
-/
import proofs.«123351_j43473658970188_1_alg».proof.Proof.Gen.KernelIdeal.Frame
import proofs.«123351_j43473658970188_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Transform1

open Cert.KernelIdeal Cert.KernelIdeal.Gen Cert.ReferenceIdeal.Read
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The block product's operand indices -/

theorem lhs_row (i : S10000x64.Idx) (κ : dot_S10000x128_S128x64_S10000x64_1_0_0_1_n_n.contr.Idx) : (dot_S10000x128_S128x64_S10000x64_1_0_0_1_n_n.lhsIdx i κ 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_contr (i : S10000x64.Idx) (κ : dot_S10000x128_S128x64_S10000x64_1_0_0_1_n_n.contr.Idx) : (dot_S10000x128_S128x64_S10000x64_1_0_0_1_n_n.lhsIdx i κ 1).val = (κ ⟨0, by decide⟩).val :=
  dot_S10000x128_S128x64_S10000x64_1_0_0_1_n_n.lhsIdx_val_of_single rfl i κ
theorem rhs_contr (i : S10000x64.Idx) (κ : dot_S10000x128_S128x64_S10000x64_1_0_0_1_n_n.contr.Idx) : (dot_S10000x128_S128x64_S10000x64_1_0_0_1_n_n.rhsIdx i κ 0).val = (κ ⟨0, by decide⟩).val :=
  dot_S10000x128_S128x64_S10000x64_1_0_0_1_n_n.rhsIdx_val_of_single rfl i κ
theorem rhs_col (i : S10000x64.Idx) (κ : dot_S10000x128_S128x64_S10000x64_1_0_0_1_n_n.contr.Idx) : (dot_S10000x128_S128x64_S10000x64_1_0_0_1_n_n.rhsIdx i κ 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The body at an entry of a block -/

/-- The block product into the zero accumulator, at (p, q): the sum over the contracted axis. -/
theorem product_at (x : FVec Ideal S10000x128 .f32) (w : FVec Ideal S128x64 .f32) (p : Fin 10000) (q : Fin 64) :
    FloatOps.matmul dot_S10000x128_S128x64_S10000x64_1_0_0_1_n_n none (truncf .bf16 x bitsLt_bf16_f32) (truncf .bf16 w bitsLt_bf16_f32)
        (constant S10000x64 .f32 0x00000000#32) (ix2 p q)
      = ∑ k : Fin 128, x (ix2 p k) * w (ix2 k q) := by
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_row _ _
    | ⟨1, _⟩ => exact (lhs_contr _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_contr _ _).trans hk
    | ⟨1, _⟩ => exact rhs_col _ _)
  show x (dot_S10000x128_S128x64_S10000x64_1_0_0_1_n_n.lhsIdx (ix2 p q) _) * w (dot_S10000x128_S128x64_S10000x64_1_0_0_1_n_n.rhsIdx (ix2 p q) _) = _
  rw [el, er]

/-- The bias row broadcast down the block, at (p, q): the row's entry q. -/
theorem bias_at (b : FVec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self]
  exact broadcastTo_apply b broadcasts_S1x64_S10000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- What the body stores, at an entry of the block. -/
theorem body_at (x : Vec Ideal S10000x128 .f32) (w : Vec Ideal S128x64 .f32) (b : Vec Ideal S1x64 .f32) (p : Fin 10000) (q : Fin 64) :
    k0_pay1 (F := Ideal) x w b (ix2 p q) = (∑ k : Fin 128, x (ix2 p k) * w (ix2 k q)) + b (ix2 0 q) := by
  unfold k0_pay1
  exact congrArg₂ (· + ·) (product_at x w p q) (bias_at b p q)

/-! ## The blocks against the arrays -/

/-- The printed index maps over the grid: the row-blocked windows sit at block row t, the whole ones at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the result is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- An index of the result array is in point t's block iff each coordinate is in the block's range on its axis. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v30).slice (win0_3.rect t)).set ↔ _
  rw [View.set_slice_whole, Rect.mem_set_unit]
  exact Iff.rfl

/-- The five blocks tile the result array: row r is in the block of point r / 10000. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

variable (V : (c : Dev nD) → (b : Ref sig .tc) → Buf (Elt Ideal) ((c : Thread nD τ).loc b))

/-- WHAT POINT t WRITES BACK is block t of the product array, the bias row being zero. -/
theorem flushed_eq (c : Dev nD) (hb : ∀ j, @Eq EReal (V c main_v29 j) 0) (t : Fin cfg0.N) :
    (dat0 V c).flushed 3 t = ((cfg0.win 3).blk t).view.read (Elt Ideal) (val_main_v4 (F := Ideal) (V c main_arg0) (V c main_arg2)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q) = (val_main_v4 (F := Ideal) (V c main_arg0) (V c main_arg2)) (((cfg0.win 3).blk t).view.emb (ix2 p q))
  refine (body_at (iblk0 V c 0 t) (iblk0 V c 1 t) (iblk0 V c 2 t) p q).trans ?_
  refine Eq.trans ?_ (val_main_v4_apply (V c main_arg0) (V c main_arg2) (((cfg0.win 3).blk t).view.emb (ix2 p q))).symm
  have hbias : @Eq EReal (iblk0 V c 2 t (ix2 0 q)) 0 := hb _
  rw [hbias, add_zero]
  refine Finset.sum_congr rfl fun k _ => ?_
  refine congrArg₂ (· * ·) ?_ ?_
  · show V c main_arg0 (((cfg0.win 0).blk t).view.emb (ix2 p k)) = V c main_arg0 (lidx_main_v4 (((cfg0.win 3).blk t).view.emb (ix2 p q)) k)
    refine congrArg (V c main_arg0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  · show V c main_arg2 (((cfg0.win 1).blk t).view.emb (ix2 k q)) = V c main_arg2 (ridx_main_v4 (((cfg0.win 3).blk t).view.emb (ix2 p q)) k)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega

/-- THE ARRAY the region leaves. -/
theorem value (c : Dev nD) (hb : ∀ j, @Eq EReal (V c main_v29 j) 0) :
    (dat0 V c).arrAt 3 cfg0.N = val_main_v4 (F := Ideal) (V c main_arg0) (V c main_arg2) :=
  (dat0 V c).arrAt_eq_of_cover 3 _ (fun t _ => flushed_eq V c hb t) covered

end Cert.KernelIdeal.Transform1

end
-- ==== Proof.Layer1.lean ====
/-
  The first layer's epilogue: the array region 1 leaves is the host's layer over the arrays it was entered with.

  The region runs the pointwise body over five row blocks of 10000 rows. At an entry (p, q) of a block it leaves
      max ((agg(p, q) + h(p, q) · d(p, 0)) + b(0, q), 0):
  the aggregated messages, plus the node's own transformed row scaled by its squared inverse root degree (the
  self-loop), plus the bias, through the rectifier. Block t of the three row-blocked operands is rows 10000·t …
  10000·t + 9999 of their arrays, the bias row is whole, the five output blocks tile the result. So the array the
  region leaves is that same expression of the arrays it was entered with, index by index: the host's layer
  `max ((A + H · D↑) + B↑, 0)` with the degree column D and the bias row B broadcast over the array.
-/
import proofs.«123351_j43473658970188_1_alg».proof.Proof.Gen.KernelIdeal.Frame
import proofs.«123351_j43473658970188_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Layer1

open Cert.KernelIdeal Cert.KernelIdeal.Gen Cert.ReferenceIdeal.Read
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body at an entry of a block -/

/-- The degree column broadcast along the rows of the block, at (p, q): the column's entry p. -/
theorem column_at (d : FVec Ideal S10000x1 .f32) (p : Fin 10000) (q : Fin 64) :
    broadcastTo S10000x64 (shapeCast S10000x1 d shapeCasts_S10000x1_S10000x1) broadcasts_S10000x1_S10000x64 (ix2 p q) = d (ix2 p 0) := by
  rw [shapeCast_self]
  exact broadcastTo_apply d broadcasts_S10000x1_S10000x64 (ix2 p q) (ix2 p 0) (fun a => match a with
    | ⟨0, _⟩ => by show p.val = if (10000 : Nat) = 1 then 0 else p.val; rw [if_neg (by decide)]
    | ⟨1, _⟩ => by show 0 = if (1 : Nat) = 1 then 0 else _; rw [if_pos rfl])

/-- The bias row broadcast down the block, at (p, q): the row's entry q. -/
theorem bias_at (b : FVec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self]
  exact broadcastTo_apply b broadcasts_S1x64_S10000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- What the body stores, at an entry of the block. -/
theorem body_at (agg h : Vec Ideal S10000x64 .f32) (d : Vec Ideal S10000x1 .f32) (b : Vec Ideal S1x64 .f32) (p : Fin 10000) (q : Fin 64) :
    k1_pay1 (F := Ideal) agg h d b (ix2 p q)
      = max ((agg (ix2 p q) + h (ix2 p q) * d (ix2 p 0)) + b (ix2 0 q)) (FloatOps.ofBits (F := Ideal) .f32 0x00000000#32) := by
  unfold k1_pay1
  have e0 : shapeCast S10000x64 agg shapeCasts_S10000x64_S10000x64 = agg := shapeCast_self _ _
  have e1 : shapeCast S10000x64 h shapeCasts_S10000x64_S10000x64 = h := shapeCast_self _ _
  have e2 := column_at d p q
  have e3 := bias_at b p q
  show max ((shapeCast S10000x64 agg shapeCasts_S10000x64_S10000x64 (ix2 p q) + shapeCast S10000x64 h shapeCasts_S10000x64_S10000x64 (ix2 p q)
      * broadcastTo S10000x64 (shapeCast S10000x1 d shapeCasts_S10000x1_S10000x1) broadcasts_S10000x1_S10000x64 (ix2 p q))
      + broadcastTo S10000x64 (shapeCast S1x64 b shapeCasts_S1x64_S1x64) broadcasts_S1x64_S10000x64 (ix2 p q)) _ = _
  rw [e0, e1, e2, e3]
  rfl

/-! ## The host's layer, and its reading at an index -/

/-- The host's layer over whole arrays: the messages A, the transformed features H scaled by the degree column D
    broadcast along the rows, the bias row B broadcast down the columns, through the rectifier. -/
def layer (A H : (⟨Cert.ReferenceIdeal.S50000x64, .f32⟩ : BufTy).Contents (Elt Ideal)) (D : (⟨Cert.ReferenceIdeal.S50000, .f32⟩ : BufTy).Contents (Elt Ideal))
    (Bv : (⟨Cert.ReferenceIdeal.S64, .f32⟩ : BufTy).Contents (Elt Ideal)) : (⟨Cert.ReferenceIdeal.S50000x64, .f32⟩ : BufTy).Contents (Elt Ideal) :=
  maximumf (F := Ideal) (φ := .f32) (addf (F := Ideal) (φ := .f32) (addf (F := Ideal) (φ := .f32) A (mulf (F := Ideal) (φ := .f32) H (broadcastInDim Cert.ReferenceIdeal.S50000x64 ![0, 1] Cert.ReferenceIdeal.Gen.bcast_S50000x1_S50000x64_0_1
    (broadcastInDim Cert.ReferenceIdeal.S50000x1 ![0] Cert.ReferenceIdeal.Gen.bcast_S50000_S50000x1_0 D)))) (val_main_v47 (F := Ideal) Bv)) (val_main_call0_v0 (F := Ideal))

/-- The degree column broadcast over the array, at an index: the column's entry at the index's row. -/
theorem degree_at (D : (⟨Cert.ReferenceIdeal.S50000, .f32⟩ : BufTy).Contents (Elt Ideal)) (i : Cert.ReferenceIdeal.S50000x64.Idx) :
    broadcastInDim Cert.ReferenceIdeal.S50000x64 ![0, 1] Cert.ReferenceIdeal.Gen.bcast_S50000x1_S50000x64_0_1 (broadcastInDim Cert.ReferenceIdeal.S50000x1 ![0] Cert.ReferenceIdeal.Gen.bcast_S50000_S50000x1_0 D) i
      = D (idx_main_v42 (idx_main_v43 i)) := by
  refine (broadcastInDim_apply _ Cert.ReferenceIdeal.Gen.bcast_S50000x1_S50000x64_0_1 (broadcastInDim Cert.ReferenceIdeal.S50000x1 ![0] Cert.ReferenceIdeal.Gen.bcast_S50000_S50000x1_0 D) i (idx_main_v43 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ Cert.ReferenceIdeal.Gen.bcast_S50000_S50000x1_0 D (idx_main_v43 i) (idx_main_v42 (idx_main_v43 i)) (fun a => match a with
    | ⟨0, _⟩ => by show (i 0).val = if (50000 : Nat) = 1 then 0 else (i 0).val; rw [if_neg (by decide)])

/-- The layer at an index. -/
theorem layer_at (A H : (⟨Cert.ReferenceIdeal.S50000x64, .f32⟩ : BufTy).Contents (Elt Ideal)) (D : (⟨Cert.ReferenceIdeal.S50000, .f32⟩ : BufTy).Contents (Elt Ideal))
    (Bv : (⟨Cert.ReferenceIdeal.S64, .f32⟩ : BufTy).Contents (Elt Ideal)) (i : Cert.ReferenceIdeal.S50000x64.Idx) :
    layer A H D Bv i = max ((A i + H i * D (idx_main_v42 (idx_main_v43 i))) + Bv (idx_main_v46 (idx_main_v47 i))) (FloatOps.ofBits (F := Ideal) .f32 0x00000000#32) := by
  unfold layer
  show max ((A i + H i * (broadcastInDim Cert.ReferenceIdeal.S50000x64 ![0, 1] Cert.ReferenceIdeal.Gen.bcast_S50000x1_S50000x64_0_1 (broadcastInDim Cert.ReferenceIdeal.S50000x1 ![0] Cert.ReferenceIdeal.Gen.bcast_S50000_S50000x1_0 D)) i)
      + val_main_v47 (F := Ideal) Bv i) (val_main_call0_v0 (F := Ideal) i) = _
  rw [degree_at, val_main_v47_apply, val_main_v46_apply, val_main_call0_v0_apply, val_main_call0_cst_apply]

/-! ## The blocks against the arrays -/

/-- The printed index maps over the grid: the row-blocked windows sit at block row t, the bias row at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row of the result is some point's. -/
theorem idx_onto : ∀ q0 : Fin 5, ∃ t : Fin cfg1.N, win1_4.index t = ![q0.val, 0] :=
  (by decide +kernel : ∀ q0 : Fin 5, ∃ t : Fin grid1.N, win1_4.index t = ![q0.val, 0])

/-- An index of the result array is in point t's block iff each coordinate is in the block's range on its axis. -/
theorem mem_blk (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v46).slice (win1_4.rect t)).set ↔ _
  rw [View.set_slice_whole, Rect.mem_set_unit]
  exact Iff.rfl

/-- The five blocks tile the result array: row r is in the block of point r / 10000. -/
theorem covered (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

variable (V : (c : Dev nD) → (b : Ref sig .tc) → Buf (Elt Ideal) ((c : Thread nD τ).loc b))

/-- WHAT POINT t WRITES BACK is block t of the layer over the arrays the region was entered with. -/
theorem flushed_eq (c : Dev nD) (D : (⟨Cert.ReferenceIdeal.S50000, .f32⟩ : BufTy).Contents (Elt Ideal)) (Bv : (⟨Cert.ReferenceIdeal.S64, .f32⟩ : BufTy).Contents (Elt Ideal))
    (hD : ∀ r : Fin 50000, @Eq EReal (V c main_v45 (ix2 r 0)) (D (ix1 r)))
    (hB : ∀ q : Fin 64, @Eq EReal (V c main_v44 (ix2 0 q)) (Bv (ix1 q)))
    (t : Fin cfg1.N) :
    (dat1 V c).flushed 4 t = ((cfg1.win 4).blk t).view.read (Elt Ideal) (layer (V c main_v43) (V c main_v30) D Bv) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts t
  have hN : t.val < 5 := lt_of_lt_of_eq t.isLt N_1
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (ix2 p q) = (layer (V c main_v43) (V c main_v30) D Bv) (((cfg1.win 4).blk t).view.emb (ix2 p q))
  refine (body_at (iblk1 V c 0 t) (iblk1 V c 1 t) (iblk1 V c 2 t) (iblk1 V c 3 t) p q).trans ?_
  refine Eq.trans ?_ (layer_at (V c main_v43) (V c main_v30) D Bv (((cfg1.win 4).blk t).view.emb (ix2 p q))).symm
  have hp : p.val < 10000 := p.isLt
  refine congrArg₂ max (congrArg₂ (· + ·) (congrArg₂ (· + ·) ?_ (congrArg₂ (· * ·) ?_ ?_)) ?_) rfl
  · show V c main_v43 (((cfg1.win 0).blk t).view.emb (ix2 p q)) = V c main_v43 (((cfg1.win 4).blk t).view.emb (ix2 p q))
    refine congrArg (V c main_v43) (funext fun a => Fin.ext ?_)
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * q.val = win1_4.index t (1 : Fin 2) * 64 + 1 * q.val; omega
  · show V c main_v30 (((cfg1.win 1).blk t).view.emb (ix2 p q)) = V c main_v30 (((cfg1.win 4).blk t).view.emb (ix2 p q))
    refine congrArg (V c main_v30) (funext fun a => Fin.ext ?_)
    match a with
    | ⟨0, _⟩ => show win1_1.index t (0 : Fin 2) * 10000 + 1 * p.val = win1_4.index t (0 : Fin 2) * 10000 + 1 * p.val; omega
    | ⟨1, _⟩ => show win1_1.index t (1 : Fin 2) * 64 + 1 * q.val = win1_4.index t (1 : Fin 2) * 64 + 1 * q.val; omega
  · show V c main_v45 (((cfg1.win 2).blk t).view.emb (ix2 p 0)) = _
    have hr : t.val * 10000 + p.val < 50000 := by omega
    have e : ((cfg1.win 2).blk t).view.emb (ix2 p (0 : Fin 1)) = ix2 (⟨t.val * 10000 + p.val, hr⟩ : Fin 50000) (0 : Fin 1) := funext fun a => Fin.ext (by
      match a with
      | ⟨0, _⟩ => show win1_2.index t (0 : Fin 2) * 10000 + 1 * p.val = t.val * 10000 + p.val; omega
      | ⟨1, _⟩ => show win1_2.index t (1 : Fin 2) * 1 + 1 * 0 = 0; omega)
    rw [e]
    refine (hD _).trans (congrArg D (funext fun a => Fin.ext ?_))
    match a with
    | ⟨0, _⟩ => show t.val * 10000 + p.val = win1_4.index t (0 : Fin 2) * 10000 + 1 * p.val; omega
  · show V c main_v44 (((cfg1.win 3).blk t).view.emb (ix2 0 q)) = _
    have e : ((cfg1.win 3).blk t).view.emb (ix2 (0 : Fin 1) q) = ix2 (0 : Fin 1) q := funext fun a => Fin.ext (by
      match a with
      | ⟨0, _⟩ => show win1_3.index t (0 : Fin 2) * 1 + 1 * 0 = 0; omega
      | ⟨1, _⟩ => show win1_3.index t (1 : Fin 2) * 64 + 1 * q.val = q.val; omega)
    rw [e]
    refine (hB _).trans (congrArg Bv (funext fun a => Fin.ext ?_))
    match a with
    | ⟨0, _⟩ => show q.val = win1_4.index t (1 : Fin 2) * 64 + 1 * q.val; omega

/-- THE ARRAY the region leaves. -/
theorem value (c : Dev nD) (D : (⟨Cert.ReferenceIdeal.S50000, .f32⟩ : BufTy).Contents (Elt Ideal)) (Bv : (⟨Cert.ReferenceIdeal.S64, .f32⟩ : BufTy).Contents (Elt Ideal))
    (hD : ∀ r : Fin 50000, @Eq EReal (V c main_v45 (ix2 r 0)) (D (ix1 r)))
    (hB : ∀ q : Fin 64, @Eq EReal (V c main_v44 (ix2 0 q)) (Bv (ix1 q))) :
    (dat1 V c).arrAt 4 cfg1.N = layer (V c main_v43) (V c main_v30) D Bv :=
  (dat1 V c).arrAt_eq_of_cover 4 _ (fun t _ => flushed_eq V c D Bv hD hB t) covered

end Cert.KernelIdeal.Layer1

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibRowCast.lean ====
/-
  A vector reshaped to a row.
-/
import Idealize.ShloMosaic.Lib.Pipeline.Value
import Idealize.ShloMosaic.Lib.ValueIdx

namespace Cert.Lib

open Idealize.ShloMosaic Idealize.ShloMosaic.ValueIdx

/-- An `[a]` array reshaped to the row `[1, a]` reads, at `(u, q)`, the operand at `q`, whatever the unit
    coordinate `u`: both positions have the same row-major offset `q`. -/
theorem shapeCast_a_1a_apply {α : Type} {a : ℕ} (x : (⟨1, ![a]⟩ : Shape).Idx → α)
    (h : (⟨1, ![a]⟩ : Shape).ShapeCasts ⟨2, ![1, a]⟩) (u : Fin 1) (q : Fin a) :
    shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

end Cert.Lib
-- ==== Proof.BoundaryA.lean ====
/-
  The idealized kernel's buffers at the boundaries of its segments, up to the first hidden layer.

  @main is five regions among five stretches of host operations, and the generated frame names the buffer contents
  at each boundary (`Gen.W1` … `Gen.W10`): a stretch's operations folded over the contents before it, a region's
  arrays at what its write-backs leave. Read from the launch memory forward:
    * the first stretch computes, from the edge list alone, the source and destination rows, the inverse root
      degrees, their squares and the per-edge weights — the same operations, in the same order, as the reference's;
    * region 0 leaves x · W1 (the bias row it adds is zero);
    * the second stretch gathers the transformed rows by source, scales them by the edge weights and sums them by
      destination, and reshapes the squared inverse root degrees to a column and the bias to a row;
    * region 1 leaves the first hidden layer.
  Each boundary's contents are stated as the reference's stages of the launch arguments.
-/
import proofs.«123351_j43473658970188_1_alg».proof.Proof.Gen.KernelIdeal.Frame
import proofs.«123351_j43473658970188_1_alg».proof.Proof.Gen.ReferenceIdeal.Read
import proofs.«123351_j43473658970188_1_alg».proof.Proof.Transform1
import proofs.«123351_j43473658970188_1_alg».proof.Proof.Layer1
import proofs.«123351_j43473658970188_1_alg».proof.Proof.LibColumnCast
import proofs.«123351_j43473658970188_1_alg».proof.Proof.LibRowCast
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The launch arguments, as the reference's stages take them -/

abbrev a0 (c : Dev nD) : (⟨Cert.ReferenceIdeal.S50000x128, .f32⟩ : BufTy).Contents (Elt Ideal) := m ((c : Thread nD τ).loc main_arg0)
abbrev a1 (c : Dev nD) : (⟨Cert.ReferenceIdeal.S2x1600000, .i32⟩ : BufTy).Contents (Elt Ideal) := m ((c : Thread nD τ).loc main_arg1)
abbrev a2 (c : Dev nD) : (⟨Cert.ReferenceIdeal.S128x64, .f32⟩ : BufTy).Contents (Elt Ideal) := m ((c : Thread nD τ).loc main_arg2)
abbrev a3 (c : Dev nD) : (⟨Cert.ReferenceIdeal.S64, .f32⟩ : BufTy).Contents (Elt Ideal) := m ((c : Thread nD τ).loc main_arg3)
abbrev a4 (c : Dev nD) : (⟨Cert.ReferenceIdeal.S64x32, .f32⟩ : BufTy).Contents (Elt Ideal) := m ((c : Thread nD τ).loc main_arg4)
abbrev a5 (c : Dev nD) : (⟨Cert.ReferenceIdeal.S32, .f32⟩ : BufTy).Contents (Elt Ideal) := m ((c : Thread nD τ).loc main_arg5)
abbrev a6 (c : Dev nD) : (⟨Cert.ReferenceIdeal.S32x1, .f32⟩ : BufTy).Contents (Elt Ideal) := m ((c : Thread nD τ).loc main_arg6)
abbrev a7 (c : Dev nD) : (⟨Cert.ReferenceIdeal.S1, .f32⟩ : BufTy).Contents (Elt Ideal) := m ((c : Thread nD τ).loc main_arg7)

/-! ## After the first host stretch -/

theorem w1_arg0 (c : Dev nD) : W1 m ρ c (Proc.devRef .tc main_arg0) = a0 m c := by
  show StableHlo.after hostOps0 (W0 m ρ c) (Proc.devRef .tc main_arg0) = _
  after_results_simp <;> rfl
theorem w1_arg2 (c : Dev nD) : W1 m ρ c (Proc.devRef .tc main_arg2) = a2 m c := by
  show StableHlo.after hostOps0 (W0 m ρ c) (Proc.devRef .tc main_arg2) = _
  after_results_simp <;> rfl
theorem w1_arg3 (c : Dev nD) : W1 m ρ c (Proc.devRef .tc main_arg3) = a3 m c := by
  show StableHlo.after hostOps0 (W0 m ρ c) (Proc.devRef .tc main_arg3) = _
  after_results_simp <;> rfl
theorem w1_arg4 (c : Dev nD) : W1 m ρ c (Proc.devRef .tc main_arg4) = a4 m c := by
  show StableHlo.after hostOps0 (W0 m ρ c) (Proc.devRef .tc main_arg4) = _
  after_results_simp <;> rfl
theorem w1_arg5 (c : Dev nD) : W1 m ρ c (Proc.devRef .tc main_arg5) = a5 m c := by
  show StableHlo.after hostOps0 (W0 m ρ c) (Proc.devRef .tc main_arg5) = _
  after_results_simp <;> rfl
theorem w1_arg6 (c : Dev nD) : W1 m ρ c (Proc.devRef .tc main_arg6) = a6 m c := by
  show StableHlo.after hostOps0 (W0 m ρ c) (Proc.devRef .tc main_arg6) = _
  after_results_simp <;> rfl
theorem w1_arg7 (c : Dev nD) : W1 m ρ c (Proc.devRef .tc main_arg7) = a7 m c := by
  show StableHlo.after hostOps0 (W0 m ρ c) (Proc.devRef .tc main_arg7) = _
  after_results_simp <;> rfl

/-- The source rows of the edges. -/
theorem w1_v1 (c : Dev nD) : W1 m ρ c (Proc.devRef .tc main_v1) = val_main_v1 (F := Ideal) (a1 m c) := by
  show StableHlo.after hostOps0 (W0 m ρ c) (Proc.devRef .tc main_v1) = _
  after_results_simp <;> rfl
/-- The destination rows of the edges. -/
theorem w1_v3 (c : Dev nD) : W1 m ρ c (Proc.devRef .tc main_v3) = val_main_v3 (F := Ideal) (a1 m c) := by
  show StableHlo.after hostOps0 (W0 m ρ c) (Proc.devRef .tc main_v3) = _
  after_results_simp <;> rfl
/-- The squared inverse root degrees. -/
theorem w1_v12 (c : Dev nD) : W1 m ρ c (Proc.devRef .tc main_v12) = val_main_v41 (F := Ideal) (a1 m c) := by
  show StableHlo.after hostOps0 (W0 m ρ c) (Proc.devRef .tc main_v12) = _
  after_results_simp <;> rfl
/-- The per-edge weights. -/
theorem w1_v27 (c : Dev nD) : W1 m ρ c (Proc.devRef .tc main_v27) = val_main_v27 (F := Ideal) (a1 m c) := by
  show StableHlo.after hostOps0 (W0 m ρ c) (Proc.devRef .tc main_v27) = _
  after_results_simp <;> rfl
/-- The first transform's bias row is zero. -/
theorem w1_v29 (c : Dev nD) (j) : @Eq EReal (V1 m ρ c main_v29 j) 0 := by
  have h : W1 m ρ c (Proc.devRef .tc main_v29) = shapeCast S1x64 (broadcastInDim S64 ![] bcast_S_S64 (constant (F := Ideal) S_ .f32 0x00000000#32)) shapeCasts_S64_S1x64 := by
    show StableHlo.after hostOps0 (W0 m ρ c) (Proc.devRef .tc main_v29) = _
    after_results_simp <;> rfl
  show @Eq EReal (W1 m ρ c (Proc.devRef .tc main_v29) j) 0
  rw [h]
  exact Ideal.ofBits_zero_f32

/-! ## After region 0 -/

/-- Region 0 leaves the product of the node features and the first weight. -/
theorem w2_v30 (c : Dev nD) : W2 m ρ c (Proc.devRef .tc main_v30) = val_main_v4 (F := Ideal) (a0 m c) (a2 m c) := by
  refine (W2_arr m ρ c 3).trans ((Transform1.value (V1 m ρ) c (w1_v29 m ρ c)).trans ?_)
  show val_main_v4 (F := Ideal) (W1 m ρ c (Proc.devRef .tc main_arg0)) (W1 m ρ c (Proc.devRef .tc main_arg2)) = _
  rw [w1_arg0, w1_arg2]
theorem w2_v1 (c : Dev nD) : W2 m ρ c (Proc.devRef .tc main_v1) = val_main_v1 (F := Ideal) (a1 m c) :=
  (W2_of_ne m ρ c main_v1 (by decide)).trans (w1_v1 m ρ c)
theorem w2_v3 (c : Dev nD) : W2 m ρ c (Proc.devRef .tc main_v3) = val_main_v3 (F := Ideal) (a1 m c) :=
  (W2_of_ne m ρ c main_v3 (by decide)).trans (w1_v3 m ρ c)
theorem w2_v12 (c : Dev nD) : W2 m ρ c (Proc.devRef .tc main_v12) = val_main_v41 (F := Ideal) (a1 m c) :=
  (W2_of_ne m ρ c main_v12 (by decide)).trans (w1_v12 m ρ c)
theorem w2_v27 (c : Dev nD) : W2 m ρ c (Proc.devRef .tc main_v27) = val_main_v27 (F := Ideal) (a1 m c) :=
  (W2_of_ne m ρ c main_v27 (by decide)).trans (w1_v27 m ρ c)
theorem w2_arg3 (c : Dev nD) : W2 m ρ c (Proc.devRef .tc main_arg3) = a3 m c :=
  (W2_of_ne m ρ c main_arg3 (by decide)).trans (w1_arg3 m ρ c)
theorem w2_arg4 (c : Dev nD) : W2 m ρ c (Proc.devRef .tc main_arg4) = a4 m c :=
  (W2_of_ne m ρ c main_arg4 (by decide)).trans (w1_arg4 m ρ c)
theorem w2_arg5 (c : Dev nD) : W2 m ρ c (Proc.devRef .tc main_arg5) = a5 m c :=
  (W2_of_ne m ρ c main_arg5 (by decide)).trans (w1_arg5 m ρ c)
theorem w2_arg6 (c : Dev nD) : W2 m ρ c (Proc.devRef .tc main_arg6) = a6 m c :=
  (W2_of_ne m ρ c main_arg6 (by decide)).trans (w1_arg6 m ρ c)
theorem w2_arg7 (c : Dev nD) : W2 m ρ c (Proc.devRef .tc main_arg7) = a7 m c :=
  (W2_of_ne m ρ c main_arg7 (by decide)).trans (w1_arg7 m ρ c)

/-! ## After the second host stretch -/

/-- The first layer's aggregated messages. -/
theorem w3_v43 (c : Dev nD) : W3 m ρ c (Proc.devRef .tc main_v43) = val_main_v40 (F := Ideal) (a0 m c) (a1 m c) (a2 m c) := by
  show StableHlo.after hostOps1 (W2 m ρ c) (Proc.devRef .tc main_v43) = _
  after_results_simp
  rw [w2_v30, w2_v1, w2_v3, w2_v27]
  rfl
/-- The squared inverse root degrees as a column. -/
theorem w3_v45 (c : Dev nD) (r : Fin 50000) : @Eq EReal (V3 m ρ c main_v45 (ix2 r 0)) (val_main_v41 (F := Ideal) (a1 m c) (ix1 r)) := by
  have h : W3 m ρ c (Proc.devRef .tc main_v45) = shapeCast S50000x1 (W2 m ρ c (Proc.devRef .tc main_v12)) shapeCasts_S50000_S50000x1 := by
    show StableHlo.after hostOps1 (W2 m ρ c) (Proc.devRef .tc main_v45) = _
    after_results_simp <;> rfl
  show @Eq EReal (W3 m ρ c (Proc.devRef .tc main_v45) (ix2 r 0)) _
  rw [h, w2_v12]
  exact Cert.Lib.shapeCast_a_a1_apply (val_main_v41 (F := Ideal) (a1 m c)) shapeCasts_S50000_S50000x1 r 0
/-- The first layer's bias as a row. -/
theorem w3_v44 (c : Dev nD) (q : Fin 64) : @Eq EReal (V3 m ρ c main_v44 (ix2 0 q)) (a3 m c (ix1 q)) := by
  have h : W3 m ρ c (Proc.devRef .tc main_v44) = shapeCast S1x64 (W2 m ρ c (Proc.devRef .tc main_arg3)) shapeCasts_S64_S1x64 := by
    show StableHlo.after hostOps1 (W2 m ρ c) (Proc.devRef .tc main_v44) = _
    after_results_simp <;> rfl
  show @Eq EReal (W3 m ρ c (Proc.devRef .tc main_v44) (ix2 0 q)) _
  rw [h, w2_arg3]
  exact Cert.Lib.shapeCast_a_1a_apply (a3 m c) shapeCasts_S64_S1x64 0 q
theorem w3_v30 (c : Dev nD) : W3 m ρ c (Proc.devRef .tc main_v30) = val_main_v4 (F := Ideal) (a0 m c) (a2 m c) :=
  (show StableHlo.after hostOps1 (W2 m ρ c) (Proc.devRef .tc main_v30) = W2 m ρ c (Proc.devRef .tc main_v30) by after_results_simp).trans (w2_v30 m ρ c)
theorem w3_v1 (c : Dev nD) : W3 m ρ c (Proc.devRef .tc main_v1) = val_main_v1 (F := Ideal) (a1 m c) :=
  (show StableHlo.after hostOps1 (W2 m ρ c) (Proc.devRef .tc main_v1) = W2 m ρ c (Proc.devRef .tc main_v1) by after_results_simp).trans (w2_v1 m ρ c)
theorem w3_v3 (c : Dev nD) : W3 m ρ c (Proc.devRef .tc main_v3) = val_main_v3 (F := Ideal) (a1 m c) :=
  (show StableHlo.after hostOps1 (W2 m ρ c) (Proc.devRef .tc main_v3) = W2 m ρ c (Proc.devRef .tc main_v3) by after_results_simp).trans (w2_v3 m ρ c)
theorem w3_v12 (c : Dev nD) : W3 m ρ c (Proc.devRef .tc main_v12) = val_main_v41 (F := Ideal) (a1 m c) :=
  (show StableHlo.after hostOps1 (W2 m ρ c) (Proc.devRef .tc main_v12) = W2 m ρ c (Proc.devRef .tc main_v12) by after_results_simp).trans (w2_v12 m ρ c)
theorem w3_v27 (c : Dev nD) : W3 m ρ c (Proc.devRef .tc main_v27) = val_main_v27 (F := Ideal) (a1 m c) :=
  (show StableHlo.after hostOps1 (W2 m ρ c) (Proc.devRef .tc main_v27) = W2 m ρ c (Proc.devRef .tc main_v27) by after_results_simp).trans (w2_v27 m ρ c)
theorem w3_arg4 (c : Dev nD) : W3 m ρ c (Proc.devRef .tc main_arg4) = a4 m c :=
  (show StableHlo.after hostOps1 (W2 m ρ c) (Proc.devRef .tc main_arg4) = W2 m ρ c (Proc.devRef .tc main_arg4) by after_results_simp).trans (w2_arg4 m ρ c)
theorem w3_arg5 (c : Dev nD) : W3 m ρ c (Proc.devRef .tc main_arg5) = a5 m c :=
  (show StableHlo.after hostOps1 (W2 m ρ c) (Proc.devRef .tc main_arg5) = W2 m ρ c (Proc.devRef .tc main_arg5) by after_results_simp).trans (w2_arg5 m ρ c)
theorem w3_arg6 (c : Dev nD) : W3 m ρ c (Proc.devRef .tc main_arg6) = a6 m c :=
  (show StableHlo.after hostOps1 (W2 m ρ c) (Proc.devRef .tc main_arg6) = W2 m ρ c (Proc.devRef .tc main_arg6) by after_results_simp).trans (w2_arg6 m ρ c)
theorem w3_arg7 (c : Dev nD) : W3 m ρ c (Proc.devRef .tc main_arg7) = a7 m c :=
  (show StableHlo.after hostOps1 (W2 m ρ c) (Proc.devRef .tc main_arg7) = W2 m ρ c (Proc.devRef .tc main_arg7) by after_results_simp).trans (w2_arg7 m ρ c)

/-! ## After region 1 -/

/-- Region 1 leaves the first hidden layer. -/
theorem w4_v46 (c : Dev nD) : W4 m ρ c (Proc.devRef .tc main_v46) = val_main_v49 (F := Ideal) (a0 m c) (a1 m c) (a2 m c) (a3 m c) := by
  refine (W4_arr m ρ c 4).trans ((Layer1.value (V3 m ρ) c (val_main_v41 (F := Ideal) (a1 m c)) (a3 m c) (w3_v45 m ρ c) (w3_v44 m ρ c)).trans ?_)
  show Layer1.layer (W3 m ρ c (Proc.devRef .tc main_v43)) (W3 m ρ c (Proc.devRef .tc main_v30)) _ _ = _
  rw [w3_v43, w3_v30]
  rfl
theorem w4_v1 (c : Dev nD) : W4 m ρ c (Proc.devRef .tc main_v1) = val_main_v1 (F := Ideal) (a1 m c) :=
  (W4_of_ne m ρ c main_v1 (by decide)).trans (w3_v1 m ρ c)
theorem w4_v3 (c : Dev nD) : W4 m ρ c (Proc.devRef .tc main_v3) = val_main_v3 (F := Ideal) (a1 m c) :=
  (W4_of_ne m ρ c main_v3 (by decide)).trans (w3_v3 m ρ c)
theorem w4_v12 (c : Dev nD) : W4 m ρ c (Proc.devRef .tc main_v12) = val_main_v41 (F := Ideal) (a1 m c) :=
  (W4_of_ne m ρ c main_v12 (by decide)).trans (w3_v12 m ρ c)
theorem w4_v27 (c : Dev nD) : W4 m ρ c (Proc.devRef .tc main_v27) = val_main_v27 (F := Ideal) (a1 m c) :=
  (W4_of_ne m ρ c main_v27 (by decide)).trans (w3_v27 m ρ c)
theorem w4_arg4 (c : Dev nD) : W4 m ρ c (Proc.devRef .tc main_arg4) = a4 m c :=
  (W4_of_ne m ρ c main_arg4 (by decide)).trans (w3_arg4 m ρ c)
theorem w4_arg5 (c : Dev nD) : W4 m ρ c (Proc.devRef .tc main_arg5) = a5 m c :=
  (W4_of_ne m ρ c main_arg5 (by decide)).trans (w3_arg5 m ρ c)
theorem w4_arg6 (c : Dev nD) : W4 m ρ c (Proc.devRef .tc main_arg6) = a6 m c :=
  (W4_of_ne m ρ c main_arg6 (by decide)).trans (w3_arg6 m ρ c)
theorem w4_arg7 (c : Dev nD) : W4 m ρ c (Proc.devRef .tc main_arg7) = a7 m c :=
  (W4_of_ne m ρ c main_arg7 (by decide)).trans (w3_arg7 m ρ c)

end Cert.KernelIdeal.Stages

end
-- ==== Proof.Transform2.lean ====
/-
  The second feature transform: the array region 2 leaves is (first hidden layer) · W2.

  The region runs the linear body over five row blocks of 10000 rows. At an entry (p, q) of a block the body leaves
      (∑ k, x(p, k) · w(k, q)) + b(0, q),
  the matrix product into a zero accumulator (a change of float format is the identity on extended reals) plus the
  bias row. Block t of the row-blocked operand is rows 10000·t … 10000·t + 9999 of its array, the weight and the bias row are
  whole, and the five output blocks tile the result array; so the array the region leaves is, index by index,
      (∑ k, X(r, k) · W(k, q)) + B(0, q)
  of the arrays X, W, B it was entered with: with the zero row for B, the host's product of the array in the first operand's buffer and the second weight.
-/
import proofs.«123351_j43473658970188_1_alg».proof.Proof.Gen.KernelIdeal.Frame
import proofs.«123351_j43473658970188_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Transform2

open Cert.KernelIdeal Cert.KernelIdeal.Gen Cert.ReferenceIdeal.Read
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The block product's operand indices -/

theorem lhs_row (i : S10000x32.Idx) (κ : dot_S10000x64_S64x32_S10000x32_1_0_0_1_n_n.contr.Idx) : (dot_S10000x64_S64x32_S10000x32_1_0_0_1_n_n.lhsIdx i κ 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_contr (i : S10000x32.Idx) (κ : dot_S10000x64_S64x32_S10000x32_1_0_0_1_n_n.contr.Idx) : (dot_S10000x64_S64x32_S10000x32_1_0_0_1_n_n.lhsIdx i κ 1).val = (κ ⟨0, by decide⟩).val :=
  dot_S10000x64_S64x32_S10000x32_1_0_0_1_n_n.lhsIdx_val_of_single rfl i κ
theorem rhs_contr (i : S10000x32.Idx) (κ : dot_S10000x64_S64x32_S10000x32_1_0_0_1_n_n.contr.Idx) : (dot_S10000x64_S64x32_S10000x32_1_0_0_1_n_n.rhsIdx i κ 0).val = (κ ⟨0, by decide⟩).val :=
  dot_S10000x64_S64x32_S10000x32_1_0_0_1_n_n.rhsIdx_val_of_single rfl i κ
theorem rhs_col (i : S10000x32.Idx) (κ : dot_S10000x64_S64x32_S10000x32_1_0_0_1_n_n.contr.Idx) : (dot_S10000x64_S64x32_S10000x32_1_0_0_1_n_n.rhsIdx i κ 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-! ## The body at an entry of a block -/

/-- The block product into the zero accumulator, at (p, q): the sum over the contracted axis. -/
theorem product_at (x : FVec Ideal S10000x64 .f32) (w : FVec Ideal S64x32 .f32) (p : Fin 10000) (q : Fin 32) :
    FloatOps.matmul dot_S10000x64_S64x32_S10000x32_1_0_0_1_n_n none (truncf .bf16 x bitsLt_bf16_f32) (truncf .bf16 w bitsLt_bf16_f32)
        (constant S10000x32 .f32 0x00000000#32) (ix2 p q)
      = ∑ k : Fin 64, x (ix2 p k) * w (ix2 k q) := by
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p q) ((contrEquiv1 dot_S10000x64_S64x32_S10000x32_1_0_0_1_n_n 64 rfl rfl).symm k) = ix2 p k := funext fun a => Fin.ext (by
    match a with
    | ⟨0, _⟩ => exact lhs_row _ _
    | ⟨1, _⟩ => exact (lhs_contr _ _).trans hk)
  have er : dot_S10000x64_S64x32_S10000x32_1_0_0_1_n_n.rhsIdx (ix2 p q) ((contrEquiv1 dot_S10000x64_S64x32_S10000x32_1_0_0_1_n_n 64 rfl rfl).symm k) = ix2 k q := funext fun a => Fin.ext (by
    match a with
    | ⟨0, _⟩ => exact (rhs_contr _ _).trans hk
    | ⟨1, _⟩ => exact rhs_col _ _)
  show x (dot_S10000x64_S64x32_S10000x32_1_0_0_1_n_n.lhsIdx (ix2 p q) _) * w (dot_S10000x64_S64x32_S10000x32_1_0_0_1_n_n.rhsIdx (ix2 p q) _) = _
  rw [el, er]

/-- The bias row broadcast down the block, at (p, q): the row's entry q. -/
theorem bias_at (b : FVec Ideal S1x32 .f32) (p : Fin 10000) (q : Fin 32) :
    broadcastTo S10000x32 (shapeCast S1x32 b shapeCasts_S1x32_S1x32) broadcasts_S1x32_S10000x32 (ix2 p q) = b (ix2 0 q) := by
  rw [shapeCast_self]
  exact broadcastTo_apply b broadcasts_S1x32_S10000x32 (ix2 p q) (ix2 0 q) (fun a => match a with
    | ⟨0, _⟩ => by show 0 = if (1 : Nat) = 1 then 0 else _; rw [if_pos rfl]
    | ⟨1, _⟩ => by show q.val = if (32 : Nat) = 1 then 0 else q.val; rw [if_neg (by decide)])

/-- What the body stores, at an entry of the block. -/
theorem body_at (x : Vec Ideal S10000x64 .f32) (w : Vec Ideal S64x32 .f32) (b : Vec Ideal S1x32 .f32) (p : Fin 10000) (q : Fin 32) :
    k2_pay1 (F := Ideal) x w b (ix2 p q) = (∑ k : Fin 64, x (ix2 p k) * w (ix2 k q)) + b (ix2 0 q) := by
  unfold k2_pay1
  refine (congrArg₂ (· + ·) (product_at (shapeCast S10000x64 x shapeCasts_S10000x64_S10000x64) w p q) (bias_at b p q)).trans ?_
  rw [shapeCast_self]

/-! ## The blocks against the arrays -/

/-- The printed index maps over the grid: the row-blocked windows sit at block row t, the whole ones at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row of the result is some point's. -/
theorem idx_onto : ∀ q0 : Fin 5, ∃ t : Fin cfg2.N, win2_3.index t = ![q0.val, 0] :=
  (by decide +kernel : ∀ q0 : Fin 5, ∃ t : Fin grid2.N, win2_3.index t = ![q0.val, 0])

/-- An index of the result array is in point t's block iff each coordinate is in the block's range on its axis. -/
theorem mem_blk (t : Fin cfg2.N) (i : S50000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v49).slice (win2_3.rect t)).set ↔ _
  rw [View.set_slice_whole, Rect.mem_set_unit]
  exact Iff.rfl

/-- The five blocks tile the result array: row r is in the block of point r / 10000. -/
theorem covered (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 32 ≤ (i 1).val ∧ (i 1).val < win2_3.index t (1 : Fin 2) * 32 + 32; omega

/-! ## The whole-array product the region is compared with -/

/-- The product of a [50000, 64] array and a [64, 32] array over the contracted axis, as the host computes it. -/
def prod (X : (⟨Cert.ReferenceIdeal.S50000x64, .f32⟩ : BufTy).Contents (Elt Ideal)) (W : (⟨Cert.ReferenceIdeal.S64x32, .f32⟩ : BufTy).Contents (Elt Ideal)) :
    (⟨Cert.ReferenceIdeal.S50000x32, .f32⟩ : BufTy).Contents (Elt Ideal) :=
  Host.dotGeneral (F := Ideal) (φ₁ := .f32) (φ₂ := .f32) Cert.ReferenceIdeal.dot_S50000x64_S64x32_S50000x32_1_0_0_1_n_n none X W

/-- At an index the product is the sum over the contracted axis of the operands' entries. -/
theorem prod_at (X : (⟨Cert.ReferenceIdeal.S50000x64, .f32⟩ : BufTy).Contents (Elt Ideal)) (W : (⟨Cert.ReferenceIdeal.S64x32, .f32⟩ : BufTy).Contents (Elt Ideal)) (i : Cert.ReferenceIdeal.S50000x32.Idx) :
    prod X W i = ∑ k : Fin 64, X (lidx_main_v50 i k) * W (ridx_main_v50 i k) := by
  unfold prod
  simp only [Host.dotGeneral]
  rw [Ideal.dotGeneral_apply, ← Equiv.sum_comp (contrEquiv1 Cert.ReferenceIdeal.dot_S50000x64_S64x32_S50000x32_1_0_0_1_n_n 64 rfl rfl).symm]
  refine Finset.sum_congr rfl fun k _ => ?_
  have hk := contrEquiv1_symm_val Cert.ReferenceIdeal.dot_S50000x64_S64x32_S50000x32_1_0_0_1_n_n 64 rfl rfl k
  have el : Cert.ReferenceIdeal.dot_S50000x64_S64x32_S50000x32_1_0_0_1_n_n.lhsIdx i ((contrEquiv1 Cert.ReferenceIdeal.dot_S50000x64_S64x32_S50000x32_1_0_0_1_n_n 64 rfl rfl).symm k) = lidx_main_v50 i k := funext fun a => Fin.ext (by
    match a with
    | ⟨0, _⟩ => exact lhs_main_v50_0 _ _
    | ⟨1, _⟩ => exact (lhs_main_v50_1 _ _).trans hk)
  have er : Cert.ReferenceIdeal.dot_S50000x64_S64x32_S50000x32_1_0_0_1_n_n.rhsIdx i ((contrEquiv1 Cert.ReferenceIdeal.dot_S50000x64_S64x32_S50000x32_1_0_0_1_n_n 64 rfl rfl).symm k) = ridx_main_v50 i k := funext fun a => Fin.ext (by
    match a with
    | ⟨0, _⟩ => exact (rhs_main_v50_0 _ _).trans hk
    | ⟨1, _⟩ => exact rhs_main_v50_1 _ _)
  rw [el, er]

variable (V : (c : Dev nD) → (b : Ref sig .tc) → Buf (Elt Ideal) ((c : Thread nD τ).loc b))

/-- WHAT POINT t WRITES BACK is block t of the product array, the bias row being zero. -/
theorem flushed_eq (c : Dev nD) (hb : ∀ j, @Eq EReal (V c main_v48 j) 0) (t : Fin cfg2.N) :
    (dat2 V c).flushed 3 t = ((cfg2.win 3).blk t).view.read (Elt Ideal) (prod (V c main_v46) (V c main_arg4)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x32) hz, View.ld_unit_zero (S := S1x32) hz]
  obtain ⟨e00, e01, e10, e11, e20, e21, e30, e31⟩ := idx_facts t
  funext j
  obtain ⟨p, q, rfl⟩ : ∃ (p : Fin 10000) (q : Fin 32), j = ix2 p q := ⟨j 0, j 1, eq_ix2 j⟩
  show k2_pay1 (F := Ideal) (iblk2 V c 0 t) (iblk2 V c 1 t) (iblk2 V c 2 t) (ix2 p q) = (prod (V c main_v46) (V c main_arg4)) (((cfg2.win 3).blk t).view.emb (ix2 p q))
  refine (body_at (iblk2 V c 0 t) (iblk2 V c 1 t) (iblk2 V c 2 t) p q).trans ?_
  refine Eq.trans ?_ (prod_at (V c main_v46) (V c main_arg4) (((cfg2.win 3).blk t).view.emb (ix2 p q))).symm
  have hbias : @Eq EReal (iblk2 V c 2 t (ix2 0 q)) 0 := hb _
  rw [hbias, add_zero]
  refine Finset.sum_congr rfl fun k _ => ?_
  refine congrArg₂ (· * ·) ?_ ?_
  · show V c main_v46 (((cfg2.win 0).blk t).view.emb (ix2 p k)) = V c main_v46 (lidx_main_v50 (((cfg2.win 3).blk t).view.emb (ix2 p q)) k)
    refine congrArg (V c main_v46) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  · show V c main_arg4 (((cfg2.win 1).blk t).view.emb (ix2 k q)) = V c main_arg4 (ridx_main_v50 (((cfg2.win 3).blk t).view.emb (ix2 p q)) k)
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 32 + 1 * q.val = win2_3.index t (1 : Fin 2) * 32 + 1 * q.val; omega

/-- THE ARRAY the region leaves. -/
theorem value (c : Dev nD) (hb : ∀ j, @Eq EReal (V c main_v48 j) 0) :
    (dat2 V c).arrAt 3 cfg2.N = prod (V c main_v46) (V c main_arg4) :=
  (dat2 V c).arrAt_eq_of_cover 3 _ (fun t _ => flushed_eq V c hb t) covered

end Cert.KernelIdeal.Transform2

end
-- ==== Proof.Layer2.lean ====
/-
  The second layer's epilogue: the array region 3 leaves is the host's layer over the arrays it was entered with.

  The region runs the pointwise body over five row blocks of 10000 rows. At an entry (p, q) of a block it leaves
      max ((agg(p, q) + h(p, q) · d(p, 0)) + b(0, q), 0):
  the aggregated messages, plus the node's own transformed row scaled by its squared inverse root degree (the
  self-loop), plus the bias, through the rectifier. Block t of the three row-blocked operands is rows 10000·t …
  10000·t + 9999 of their arrays, the bias row is whole, the five output blocks tile the result. So the array the
  region leaves is that same expression of the arrays it was entered with, index by index: the host's layer
  `max ((A + H · D↑) + B↑, 0)` with the degree column D and the bias row B broadcast over the array.
-/
import proofs.«123351_j43473658970188_1_alg».proof.Proof.Gen.KernelIdeal.Frame
import proofs.«123351_j43473658970188_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Layer2

open Cert.KernelIdeal Cert.KernelIdeal.Gen Cert.ReferenceIdeal.Read
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body at an entry of a block -/

/-- The degree column broadcast along the rows of the block, at (p, q): the column's entry p. -/
theorem column_at (d : FVec Ideal S10000x1 .f32) (p : Fin 10000) (q : Fin 32) :
    broadcastTo S10000x32 (shapeCast S10000x1 d shapeCasts_S10000x1_S10000x1) broadcasts_S10000x1_S10000x32 (ix2 p q) = d (ix2 p 0) := by
  rw [shapeCast_self]
  exact broadcastTo_apply d broadcasts_S10000x1_S10000x32 (ix2 p q) (ix2 p 0) (fun a => match a with
    | ⟨0, _⟩ => by show p.val = if (10000 : Nat) = 1 then 0 else p.val; rw [if_neg (by decide)]
    | ⟨1, _⟩ => by show 0 = if (1 : Nat) = 1 then 0 else _; rw [if_pos rfl])

/-- The bias row broadcast down the block, at (p, q): the row's entry q. -/
theorem bias_at (b : FVec Ideal S1x32 .f32) (p : Fin 10000) (q : Fin 32) :
    broadcastTo S10000x32 (shapeCast S1x32 b shapeCasts_S1x32_S1x32) broadcasts_S1x32_S10000x32 (ix2 p q) = b (ix2 0 q) := by
  rw [shapeCast_self]
  exact broadcastTo_apply b broadcasts_S1x32_S10000x32 (ix2 p q) (ix2 0 q) (fun a => match a with
    | ⟨0, _⟩ => by show 0 = if (1 : Nat) = 1 then 0 else _; rw [if_pos rfl]
    | ⟨1, _⟩ => by show q.val = if (32 : Nat) = 1 then 0 else q.val; rw [if_neg (by decide)])

/-- What the body stores, at an entry of the block. -/
theorem body_at (agg h : Vec Ideal S10000x32 .f32) (d : Vec Ideal S10000x1 .f32) (b : Vec Ideal S1x32 .f32) (p : Fin 10000) (q : Fin 32) :
    k3_pay1 (F := Ideal) agg h d b (ix2 p q)
      = max ((agg (ix2 p q) + h (ix2 p q) * d (ix2 p 0)) + b (ix2 0 q)) (FloatOps.ofBits (F := Ideal) .f32 0x00000000#32) := by
  unfold k3_pay1
  have e0 : shapeCast S10000x32 agg shapeCasts_S10000x32_S10000x32 = agg := shapeCast_self _ _
  have e1 : shapeCast S10000x32 h shapeCasts_S10000x32_S10000x32 = h := shapeCast_self _ _
  have e2 := column_at d p q
  have e3 := bias_at b p q
  show max ((shapeCast S10000x32 agg shapeCasts_S10000x32_S10000x32 (ix2 p q) + shapeCast S10000x32 h shapeCasts_S10000x32_S10000x32 (ix2 p q)
      * broadcastTo S10000x32 (shapeCast S10000x1 d shapeCasts_S10000x1_S10000x1) broadcasts_S10000x1_S10000x32 (ix2 p q))
      + broadcastTo S10000x32 (shapeCast S1x32 b shapeCasts_S1x32_S1x32) broadcasts_S1x32_S10000x32 (ix2 p q)) _ = _
  rw [e0, e1, e2, e3]
  rfl

/-! ## The host's layer, and its reading at an index -/

/-- The host's layer over whole arrays: the messages A, the transformed features H scaled by the degree column D
    broadcast along the rows, the bias row B broadcast down the columns, through the rectifier. -/
def layer (A H : (⟨Cert.ReferenceIdeal.S50000x32, .f32⟩ : BufTy).Contents (Elt Ideal)) (D : (⟨Cert.ReferenceIdeal.S50000, .f32⟩ : BufTy).Contents (Elt Ideal))
    (Bv : (⟨Cert.ReferenceIdeal.S32, .f32⟩ : BufTy).Contents (Elt Ideal)) : (⟨Cert.ReferenceIdeal.S50000x32, .f32⟩ : BufTy).Contents (Elt Ideal) :=
  maximumf (F := Ideal) (φ := .f32) (addf (F := Ideal) (φ := .f32) (addf (F := Ideal) (φ := .f32) A (mulf (F := Ideal) (φ := .f32) H (broadcastInDim Cert.ReferenceIdeal.S50000x32 ![0, 1] Cert.ReferenceIdeal.Gen.bcast_S50000x1_S50000x32_0_1
    (broadcastInDim Cert.ReferenceIdeal.S50000x1 ![0] Cert.ReferenceIdeal.Gen.bcast_S50000_S50000x1_0 D)))) (val_main_v93 (F := Ideal) Bv)) (val_main_call1_v0 (F := Ideal))

/-- The degree column broadcast over the array, at an index: the column's entry at the index's row. -/
theorem degree_at (D : (⟨Cert.ReferenceIdeal.S50000, .f32⟩ : BufTy).Contents (Elt Ideal)) (i : Cert.ReferenceIdeal.S50000x32.Idx) :
    broadcastInDim Cert.ReferenceIdeal.S50000x32 ![0, 1] Cert.ReferenceIdeal.Gen.bcast_S50000x1_S50000x32_0_1 (broadcastInDim Cert.ReferenceIdeal.S50000x1 ![0] Cert.ReferenceIdeal.Gen.bcast_S50000_S50000x1_0 D) i
      = D (idx_main_v88 (idx_main_v89 i)) := by
  refine (broadcastInDim_apply _ Cert.ReferenceIdeal.Gen.bcast_S50000x1_S50000x32_0_1 (broadcastInDim Cert.ReferenceIdeal.S50000x1 ![0] Cert.ReferenceIdeal.Gen.bcast_S50000_S50000x1_0 D) i (idx_main_v89 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ Cert.ReferenceIdeal.Gen.bcast_S50000_S50000x1_0 D (idx_main_v89 i) (idx_main_v88 (idx_main_v89 i)) (fun a => match a with
    | ⟨0, _⟩ => by show (i 0).val = if (50000 : Nat) = 1 then 0 else (i 0).val; rw [if_neg (by decide)])

/-- The layer at an index. -/
theorem layer_at (A H : (⟨Cert.ReferenceIdeal.S50000x32, .f32⟩ : BufTy).Contents (Elt Ideal)) (D : (⟨Cert.ReferenceIdeal.S50000, .f32⟩ : BufTy).Contents (Elt Ideal))
    (Bv : (⟨Cert.ReferenceIdeal.S32, .f32⟩ : BufTy).Contents (Elt Ideal)) (i : Cert.ReferenceIdeal.S50000x32.Idx) :
    layer A H D Bv i = max ((A i + H i * D (idx_main_v88 (idx_main_v89 i))) + Bv (idx_main_v92 (idx_main_v93 i))) (FloatOps.ofBits (F := Ideal) .f32 0x00000000#32) := by
  unfold layer
  show max ((A i + H i * (broadcastInDim Cert.ReferenceIdeal.S50000x32 ![0, 1] Cert.ReferenceIdeal.Gen.bcast_S50000x1_S50000x32_0_1 (broadcastInDim Cert.ReferenceIdeal.S50000x1 ![0] Cert.ReferenceIdeal.Gen.bcast_S50000_S50000x1_0 D)) i)
      + val_main_v93 (F := Ideal) Bv i) (val_main_call1_v0 (F := Ideal) i) = _
  rw [degree_at, val_main_v93_apply, val_main_v92_apply, val_main_call1_v0_apply, val_main_call1_cst_apply]

/-! ## The blocks against the arrays -/

/-- The printed index maps over the grid: the row-blocked windows sit at block row t, the bias row at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block row of the result is some point's. -/
theorem idx_onto : ∀ q0 : Fin 5, ∃ t : Fin cfg3.N, win3_4.index t = ![q0.val, 0] :=
  (by decide +kernel : ∀ q0 : Fin 5, ∃ t : Fin grid3.N, win3_4.index t = ![q0.val, 0])

/-- An index of the result array is in point t's block iff each coordinate is in the block's range on its axis. -/
theorem mem_blk (t : Fin cfg3.N) (i : S50000x32.Idx) :
    i ∈ ((cfg3.win 4).blk t).view.set ↔ ∀ a : Fin 2, win3_4.index t a * S10000x32.size a ≤ (i a).val ∧ (i a).val < win3_4.index t a * S10000x32.size a + S10000x32.size a := by
  show i ∈ ((View.whole main_v65).slice (win3_4.rect t)).set ↔ _
  rw [View.set_slice_whole, Rect.mem_set_unit]
  exact Iff.rfl

/-- The five blocks tile the result array: row r is in the block of point r / 10000. -/
theorem covered (i : S50000x32.Idx) : ∃ t : Fin cfg3.N, (cfg3.win 4).flush t = true ∧ i ∈ ((cfg3.win 4).blk t).view.set := by
  have hi0 : (i 0).val < 50000 := (i 0).isLt
  have hi1 : (i 1).val < 32 := (i 1).isLt
  obtain ⟨t, ht⟩ := idx_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 32 ≤ (i 1).val ∧ (i 1).val < win3_4.index t (1 : Fin 2) * 32 + 32; omega

variable (V : (c : Dev nD) → (b : Ref sig .tc) → Buf (Elt Ideal) ((c : Thread nD τ).loc b))

/-- WHAT POINT t WRITES BACK is block t of the layer over the arrays the region was entered with. -/
theorem flushed_eq (c : Dev nD) (D : (⟨Cert.ReferenceIdeal.S50000, .f32⟩ : BufTy).Contents (Elt Ideal)) (Bv : (⟨Cert.ReferenceIdeal.S32, .f32⟩ : BufTy).Contents (Elt Ideal))
    (hD : ∀ r : Fin 50000, @Eq EReal (V c main_v64 (ix2 r 0)) (D (ix1 r)))
    (hB : ∀ q : Fin 32, @Eq EReal (V c main_v63 (ix2 0 q)) (Bv (ix1 q)))
    (t : Fin cfg3.N) :
    (dat3 V c).flushed 4 t = ((cfg3.win 4).blk t).view.read (Elt Ideal) (layer (V c main_v62) (V c main_v49) D Bv) := by
  show (cfg3.win 4).cut (grid3.coords t) ((dat3 V c).after 4 t) = _
  rw [after3_4]
  unfold out3_4
  rw [View.canon_unit_zero hz]
  simp only [View.ld_unit_zero (S := S10000x32) hz, View.ld_unit_zero (S := S10000x1) hz, View.ld_unit_zero (S := S1x32) hz]
  obtain ⟨e00, e01, e10, e11, e20, e21, e30, e31, e40, e41⟩ := idx_facts t
  have hN : t.val < 5 := lt_of_lt_of_eq t.isLt N_3
  funext j
  obtain ⟨p, q, rfl⟩ : ∃ (p : Fin 10000) (q : Fin 32), j = ix2 p q := ⟨j 0, j 1, eq_ix2 j⟩
  show k3_pay1 (F := Ideal) (iblk3 V c 0 t) (iblk3 V c 1 t) (iblk3 V c 2 t) (iblk3 V c 3 t) (ix2 p q) = (layer (V c main_v62) (V c main_v49) D Bv) (((cfg3.win 4).blk t).view.emb (ix2 p q))
  refine (body_at (iblk3 V c 0 t) (iblk3 V c 1 t) (iblk3 V c 2 t) (iblk3 V c 3 t) p q).trans ?_
  refine Eq.trans ?_ (layer_at (V c main_v62) (V c main_v49) D Bv (((cfg3.win 4).blk t).view.emb (ix2 p q))).symm
  have hp : p.val < 10000 := p.isLt
  refine congrArg₂ max (congrArg₂ (· + ·) (congrArg₂ (· + ·) ?_ (congrArg₂ (· * ·) ?_ ?_)) ?_) rfl
  · show V c main_v62 (((cfg3.win 0).blk t).view.emb (ix2 p q)) = V c main_v62 (((cfg3.win 4).blk t).view.emb (ix2 p q))
    refine congrArg (V c main_v62) (funext fun a => Fin.ext ?_)
    match a with
    | ⟨0, _⟩ => show win3_0.index t (0 : Fin 2) * 10000 + 1 * p.val = win3_4.index t (0 : Fin 2) * 10000 + 1 * p.val; omega
    | ⟨1, _⟩ => show win3_0.index t (1 : Fin 2) * 32 + 1 * q.val = win3_4.index t (1 : Fin 2) * 32 + 1 * q.val; omega
  · show V c main_v49 (((cfg3.win 1).blk t).view.emb (ix2 p q)) = V c main_v49 (((cfg3.win 4).blk t).view.emb (ix2 p q))
    refine congrArg (V c main_v49) (funext fun a => Fin.ext ?_)
    match a with
    | ⟨0, _⟩ => show win3_1.index t (0 : Fin 2) * 10000 + 1 * p.val = win3_4.index t (0 : Fin 2) * 10000 + 1 * p.val; omega
    | ⟨1, _⟩ => show win3_1.index t (1 : Fin 2) * 32 + 1 * q.val = win3_4.index t (1 : Fin 2) * 32 + 1 * q.val; omega
  · show V c main_v64 (((cfg3.win 2).blk t).view.emb (ix2 p 0)) = _
    have hr : t.val * 10000 + p.val < 50000 := by omega
    have e : ((cfg3.win 2).blk t).view.emb (ix2 p (0 : Fin 1)) = ix2 (⟨t.val * 10000 + p.val, hr⟩ : Fin 50000) (0 : Fin 1) := funext fun a => Fin.ext (by
      match a with
      | ⟨0, _⟩ => show win3_2.index t (0 : Fin 2) * 10000 + 1 * p.val = t.val * 10000 + p.val; omega
      | ⟨1, _⟩ => show win3_2.index t (1 : Fin 2) * 1 + 1 * 0 = 0; omega)
    rw [e]
    refine (hD _).trans (congrArg D (funext fun a => Fin.ext ?_))
    match a with
    | ⟨0, _⟩ => show t.val * 10000 + p.val = win3_4.index t (0 : Fin 2) * 10000 + 1 * p.val; omega
  · show V c main_v63 (((cfg3.win 3).blk t).view.emb (ix2 0 q)) = _
    have e : ((cfg3.win 3).blk t).view.emb (ix2 (0 : Fin 1) q) = ix2 (0 : Fin 1) q := funext fun a => Fin.ext (by
      match a with
      | ⟨0, _⟩ => show win3_3.index t (0 : Fin 2) * 1 + 1 * 0 = 0; omega
      | ⟨1, _⟩ => show win3_3.index t (1 : Fin 2) * 32 + 1 * q.val = q.val; omega)
    rw [e]
    refine (hB _).trans (congrArg Bv (funext fun a => Fin.ext ?_))
    match a with
    | ⟨0, _⟩ => show q.val = win3_4.index t (1 : Fin 2) * 32 + 1 * q.val; omega

/-- THE ARRAY the region leaves. -/
theorem value (c : Dev nD) (D : (⟨Cert.ReferenceIdeal.S50000, .f32⟩ : BufTy).Contents (Elt Ideal)) (Bv : (⟨Cert.ReferenceIdeal.S32, .f32⟩ : BufTy).Contents (Elt Ideal))
    (hD : ∀ r : Fin 50000, @Eq EReal (V c main_v64 (ix2 r 0)) (D (ix1 r)))
    (hB : ∀ q : Fin 32, @Eq EReal (V c main_v63 (ix2 0 q)) (Bv (ix1 q))) :
    (dat3 V c).arrAt 4 cfg3.N = layer (V c main_v62) (V c main_v49) D Bv :=
  (dat3 V c).arrAt_eq_of_cover 4 _ (fun t _ => flushed_eq V c D Bv hD hB t) covered

end Cert.KernelIdeal.Layer2

end
-- ==== Proof.Head.lean ====
/-
  The head: the array region 4 leaves is (second hidden layer) · Wh + bh.

  The region runs the linear body over five row blocks of 10000 rows. At an entry (p, q) of a block the body leaves
      (∑ k, x(p, k) · w(k, q)) + b(0, q),
  the matrix product into a zero accumulator (a change of float format is the identity on extended reals) plus the
  bias row. Block t of the row-blocked operand is rows 10000·t … 10000·t + 9999 of its array, the weight and the bias row are
  whole, and the five output blocks tile the result array; so the array the region leaves is, index by index,
      (∑ k, X(r, k) · W(k, q)) + B(0, q)
  of the arrays X, W, B it was entered with: the host's product of the array in the first operand's buffer and the head's weight, plus the head's bias broadcast over the rows.
-/
import proofs.«123351_j43473658970188_1_alg».proof.Proof.Gen.KernelIdeal.Frame
import proofs.«123351_j43473658970188_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Head

open Cert.KernelIdeal Cert.KernelIdeal.Gen Cert.ReferenceIdeal.Read
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The block product's operand indices -/

theorem lhs_row (i : S10000x1.Idx) (κ : dot_S10000x32_S32x1_S10000x1_1_0_0_1_n_n.contr.Idx) : (dot_S10000x32_S32x1_S10000x1_1_0_0_1_n_n.lhsIdx i κ 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
theorem lhs_contr (i : S10000x1.Idx) (κ : dot_S10000x32_S32x1_S10000x1_1_0_0_1_n_n.contr.Idx) : (dot_S10000x32_S32x1_S10000x1_1_0_0_1_n_n.lhsIdx i κ 1).val = (κ ⟨0, by decide⟩).val :=
  dot_S10000x32_S32x1_S10000x1_1_0_0_1_n_n.lhsIdx_val_of_single rfl i κ
theorem rhs_contr (i : S10000x1.Idx) (κ : dot_S10000x32_S32x1_S10000x1_1_0_0_1_n_n.contr.Idx) : (dot_S10000x32_S32x1_S10000x1_1_0_0_1_n_n.rhsIdx i κ 0).val = (κ ⟨0, by decide⟩).val :=
  dot_S10000x32_S32x1_S10000x1_1_0_0_1_n_n.rhsIdx_val_of_single rfl i κ
theorem rhs_col (i : S10000x1.Idx) (κ : dot_S10000x32_S32x1_S10000x1_1_0_0_1_n_n.contr.Idx) : (dot_S10000x32_S32x1_S10000x1_1_0_0_1_n_n.rhsIdx i κ 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-! ## The body at an entry of a block -/

/-- The block product into the zero accumulator, at (p, q): the sum over the contracted axis. -/
theorem product_at (x : FVec Ideal S10000x32 .f32) (w : FVec Ideal S32x1 .f32) (p : Fin 10000) (q : Fin 1) :
    FloatOps.matmul dot_S10000x32_S32x1_S10000x1_1_0_0_1_n_n none (truncf .bf16 x bitsLt_bf16_f32) (truncf .bf16 w bitsLt_bf16_f32)
        (constant S10000x1 .f32 0x00000000#32) (ix2 p q)
      = ∑ k : Fin 32, x (ix2 p k) * w (ix2 k q) := by
  rw [Ideal.matmul_constant_zero_apply, ← Equiv.sum_comp (contrEquiv1 dot_S10000x32_S32x1_S10000x1_1_0_0_1_n_n 32 rfl rfl).symm]
  refine Finset.sum_congr rfl fun k _ => ?_
  have hk := contrEquiv1_symm_val dot_S10000x32_S32x1_S10000x1_1_0_0_1_n_n 32 rfl rfl k
  have el : dot_S10000x32_S32x1_S10000x1_1_0_0_1_n_n.lhsIdx (ix2 p q) ((contrEquiv1 dot_S10000x32_S32x1_S10000x1_1_0_0_1_n_n 32 rfl rfl).symm k) = ix2 p k := funext fun a => Fin.ext (by
    match a with
    | ⟨0, _⟩ => exact lhs_row _ _
    | ⟨1, _⟩ => exact (lhs_contr _ _).trans hk)
  have er : dot_S10000x32_S32x1_S10000x1_1_0_0_1_n_n.rhsIdx (ix2 p q) ((contrEquiv1 dot_S10000x32_S32x1_S10000x1_1_0_0_1_n_n 32 rfl rfl).symm k) = ix2 k q := funext fun a => Fin.ext (by
    match a with
    | ⟨0, _⟩ => exact (rhs_contr _ _).trans hk
    | ⟨1, _⟩ => exact rhs_col _ _)
  show x (dot_S10000x32_S32x1_S10000x1_1_0_0_1_n_n.lhsIdx (ix2 p q) _) * w (dot_S10000x32_S32x1_S10000x1_1_0_0_1_n_n.rhsIdx (ix2 p q) _) = _
  rw [el, er]

/-- The bias row broadcast down the block, at (p, q): the row's entry q. -/
theorem bias_at (b : FVec Ideal S1x1 .f32) (p : Fin 10000) (q : Fin 1) :
    broadcastTo S10000x1 (shapeCast S1x1 b shapeCasts_S1x1_S1x1) broadcasts_S1x1_S10000x1 (ix2 p q) = b (ix2 0 q) := by
  rw [shapeCast_self]
  exact broadcastTo_apply b broadcasts_S1x1_S10000x1 (ix2 p q) (ix2 0 q) (fun a => match a with
    | ⟨0, _⟩ => by show 0 = if (1 : Nat) = 1 then 0 else _; rw [if_pos rfl]
    | ⟨1, _⟩ => by show q.val = if (1 : Nat) = 1 then 0 else q.val; rw [if_pos rfl]; have := q.isLt; omega)

/-- What the body stores, at an entry of the block. -/
theorem body_at (x : Vec Ideal S10000x32 .f32) (w : Vec Ideal S32x1 .f32) (b : Vec Ideal S1x1 .f32) (p : Fin 10000) (q : Fin 1) :
    k4_pay1 (F := Ideal) x w b (ix2 p q) = (∑ k : Fin 32, x (ix2 p k) * w (ix2 k q)) + b (ix2 0 q) := by
  unfold k4_pay1
  refine (congrArg₂ (· + ·) (product_at (shapeCast S10000x32 x shapeCasts_S10000x32_S10000x32) w p q) (bias_at b p q)).trans ?_
  rw [shapeCast_self]

/-! ## The blocks against the arrays -/

/-- The printed index maps over the grid: the row-blocked windows sit at block row t, the whole ones at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Every block row of the result is some point's. -/
theorem idx_onto : ∀ q0 : Fin 5, ∃ t : Fin cfg4.N, win4_3.index t = ![q0.val, 0] :=
  (by decide +kernel : ∀ q0 : Fin 5, ∃ t : Fin grid4.N, win4_3.index t = ![q0.val, 0])

/-- An index of the result array is in point t's block iff each coordinate is in the block's range on its axis. -/
theorem mem_blk (t : Fin cfg4.N) (i : S50000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v67).slice (win4_3.rect t)).set ↔ _
  rw [View.set_slice_whole, Rect.mem_set_unit]
  exact Iff.rfl

/-- The five blocks tile the result array: row r is in the block of point r / 10000. -/
theorem covered (i : S50000x1.Idx) : ∃ t : Fin cfg4.N, (cfg4.win 3).flush t = true ∧ i ∈ ((cfg4.win 3).blk t).view.set := by
  have hi0 : (i 0).val < 50000 := (i 0).isLt
  have hi1 : (i 1).val < 1 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 1 ≤ (i 1).val ∧ (i 1).val < win4_3.index t (1 : Fin 2) * 1 + 1; omega

/-! ## The whole-array product the region is compared with -/

/-- The product of a [50000, 32] array and a [32, 1] array over the contracted axis, as the host computes it. -/
def prod (X : (⟨Cert.ReferenceIdeal.S50000x32, .f32⟩ : BufTy).Contents (Elt Ideal)) (W : (⟨Cert.ReferenceIdeal.S32x1, .f32⟩ : BufTy).Contents (Elt Ideal)) :
    (⟨Cert.ReferenceIdeal.S50000x1, .f32⟩ : BufTy).Contents (Elt Ideal) :=
  Host.dotGeneral (F := Ideal) (φ₁ := .f32) (φ₂ := .f32) Cert.ReferenceIdeal.dot_S50000x32_S32x1_S50000x1_1_0_0_1_n_n none X W

/-- At an index the product is the sum over the contracted axis of the operands' entries. -/
theorem prod_at (X : (⟨Cert.ReferenceIdeal.S50000x32, .f32⟩ : BufTy).Contents (Elt Ideal)) (W : (⟨Cert.ReferenceIdeal.S32x1, .f32⟩ : BufTy).Contents (Elt Ideal)) (i : Cert.ReferenceIdeal.S50000x1.Idx) :
    prod X W i = ∑ k : Fin 32, X (lidx_main_v96 i k) * W (ridx_main_v96 i k) := by
  unfold prod
  simp only [Host.dotGeneral]
  rw [Ideal.dotGeneral_apply, ← Equiv.sum_comp (contrEquiv1 Cert.ReferenceIdeal.dot_S50000x32_S32x1_S50000x1_1_0_0_1_n_n 32 rfl rfl).symm]
  refine Finset.sum_congr rfl fun k _ => ?_
  have hk := contrEquiv1_symm_val Cert.ReferenceIdeal.dot_S50000x32_S32x1_S50000x1_1_0_0_1_n_n 32 rfl rfl k
  have el : Cert.ReferenceIdeal.dot_S50000x32_S32x1_S50000x1_1_0_0_1_n_n.lhsIdx i ((contrEquiv1 Cert.ReferenceIdeal.dot_S50000x32_S32x1_S50000x1_1_0_0_1_n_n 32 rfl rfl).symm k) = lidx_main_v96 i k := funext fun a => Fin.ext (by
    match a with
    | ⟨0, _⟩ => exact lhs_main_v96_0 _ _
    | ⟨1, _⟩ => exact (lhs_main_v96_1 _ _).trans hk)
  have er : Cert.ReferenceIdeal.dot_S50000x32_S32x1_S50000x1_1_0_0_1_n_n.rhsIdx i ((contrEquiv1 Cert.ReferenceIdeal.dot_S50000x32_S32x1_S50000x1_1_0_0_1_n_n 32 rfl rfl).symm k) = ridx_main_v96 i k := funext fun a => Fin.ext (by
    match a with
    | ⟨0, _⟩ => exact (rhs_main_v96_0 _ _).trans hk
    | ⟨1, _⟩ => exact rhs_main_v96_1 _ _)
  rw [el, er]

/-- The head over whole arrays: the product plus the one-entry bias broadcast over the rows. -/
def head (X : (⟨Cert.ReferenceIdeal.S50000x32, .f32⟩ : BufTy).Contents (Elt Ideal)) (W : (⟨Cert.ReferenceIdeal.S32x1, .f32⟩ : BufTy).Contents (Elt Ideal))
    (Bv : (⟨Cert.ReferenceIdeal.S1, .f32⟩ : BufTy).Contents (Elt Ideal)) : (⟨Cert.ReferenceIdeal.S50000x1, .f32⟩ : BufTy).Contents (Elt Ideal) :=
  addf (F := Ideal) (φ := .f32) (prod X W) (val_main_v98 (F := Ideal) Bv)

/-- The head at an index. -/
theorem head_at (X : (⟨Cert.ReferenceIdeal.S50000x32, .f32⟩ : BufTy).Contents (Elt Ideal)) (W : (⟨Cert.ReferenceIdeal.S32x1, .f32⟩ : BufTy).Contents (Elt Ideal))
    (Bv : (⟨Cert.ReferenceIdeal.S1, .f32⟩ : BufTy).Contents (Elt Ideal)) (i : Cert.ReferenceIdeal.S50000x1.Idx) :
    head X W Bv i = (∑ k : Fin 32, X (lidx_main_v96 i k) * W (ridx_main_v96 i k)) + Bv (idx_main_v97 (idx_main_v98 i)) := by
  unfold head
  show prod X W i + val_main_v98 (F := Ideal) Bv i = _
  rw [prod_at, val_main_v98_apply, val_main_v97_apply]

variable (V : (c : Dev nD) → (b : Ref sig .tc) → Buf (Elt Ideal) ((c : Thread nD τ).loc b))

/-- WHAT POINT t WRITES BACK is block t of the product array plus the bias. -/
theorem flushed_eq (c : Dev nD) (Bv : (⟨Cert.ReferenceIdeal.S1, .f32⟩ : BufTy).Contents (Elt Ideal)) (hB : ∀ j, @Eq EReal (V c main_v66 j) (Bv (ix1 0))) (t : Fin cfg4.N) :
    (dat4 V c).flushed 3 t = ((cfg4.win 3).blk t).view.read (Elt Ideal) (head (V c main_v65) (V c main_arg6) Bv) := by
  show (cfg4.win 3).cut (grid4.coords t) ((dat4 V c).after 3 t) = _
  rw [after4_3]
  unfold out4_3
  rw [View.canon_unit_zero hz]
  simp only [View.ld_unit_zero (S := S10000x32) hz, View.ld_unit_zero (S := S32x1) hz, View.ld_unit_zero (S := S1x1) hz]
  obtain ⟨e00, e01, e10, e11, e20, e21, e30, e31⟩ := idx_facts t
  funext j
  obtain ⟨p, q, rfl⟩ : ∃ (p : Fin 10000) (q : Fin 1), j = ix2 p q := ⟨j 0, j 1, eq_ix2 j⟩
  show k4_pay1 (F := Ideal) (iblk4 V c 0 t) (iblk4 V c 1 t) (iblk4 V c 2 t) (ix2 p q) = (head (V c main_v65) (V c main_arg6) Bv) (((cfg4.win 3).blk t).view.emb (ix2 p q))
  refine (body_at (iblk4 V c 0 t) (iblk4 V c 1 t) (iblk4 V c 2 t) p q).trans ?_
  refine Eq.trans ?_ (head_at (V c main_v65) (V c main_arg6) Bv (((cfg4.win 3).blk t).view.emb (ix2 p q))).symm
  refine congrArg₂ (· + ·) (Finset.sum_congr rfl fun k _ => congrArg₂ (· * ·) ?_ ?_) ?_
  · show V c main_v65 (((cfg4.win 0).blk t).view.emb (ix2 p k)) = V c main_v65 (lidx_main_v96 (((cfg4.win 3).blk t).view.emb (ix2 p q)) k)
    refine congrArg (V c main_v65) (funext fun a => Fin.ext ?_)
    match a with
    | ⟨0, _⟩ => show win4_0.index t (0 : Fin 2) * 10000 + 1 * p.val = win4_3.index t (0 : Fin 2) * 10000 + 1 * p.val; omega
    | ⟨1, _⟩ => show win4_0.index t (1 : Fin 2) * 32 + 1 * k.val = k.val; omega
  · show V c main_arg6 (((cfg4.win 1).blk t).view.emb (ix2 k q)) = V c main_arg6 (ridx_main_v96 (((cfg4.win 3).blk t).view.emb (ix2 p q)) k)
    refine congrArg (V c main_arg6) (funext fun a => Fin.ext ?_)
    match a with
    | ⟨0, _⟩ => show win4_1.index t (0 : Fin 2) * 32 + 1 * k.val = k.val; omega
    | ⟨1, _⟩ => show win4_1.index t (1 : Fin 2) * 1 + 1 * q.val = win4_3.index t (1 : Fin 2) * 1 + 1 * q.val; omega
  · show V c main_v66 (((cfg4.win 2).blk t).view.emb (ix2 0 q)) = Bv (idx_main_v97 (idx_main_v98 (((cfg4.win 3).blk t).view.emb (ix2 p q))))
    refine (hB _).trans (congrArg Bv (funext fun a => Fin.ext ?_))
    match a with
    | ⟨0, _⟩ => rfl

/-- THE ARRAY the region leaves. -/
theorem value (c : Dev nD) (Bv : (⟨Cert.ReferenceIdeal.S1, .f32⟩ : BufTy).Contents (Elt Ideal)) (hB : ∀ j, @Eq EReal (V c main_v66 j) (Bv (ix1 0))) :
    (dat4 V c).arrAt 3 cfg4.N = head (V c main_v65) (V c main_arg6) Bv :=
  (dat4 V c).arrAt_eq_of_cover 3 _ (fun t _ => flushed_eq V c Bv hB t) covered

end Cert.KernelIdeal.Head

end
-- ==== Proof.BoundaryB.lean ====
/-
  The idealized kernel's buffers at the boundaries of its segments, from the first hidden layer to the result.

    * the third stretch only makes a zero bias row; region 2 leaves (first hidden layer) · W2;
    * the fourth stretch aggregates the transformed rows over the edges once more — with the edge weights and the
      squared inverse root degrees computed in the first stretch, where the reference computes them a second time
      from the same edge list: the same term of the same argument;
    * region 3 leaves the second hidden layer; the last stretch reshapes the head's bias; region 4 leaves the result.
  The last boundary's contents at the result buffer are the reference's result stage of the launch arguments.
-/
import proofs.«123351_j43473658970188_1_alg».proof.Proof.BoundaryA
import proofs.«123351_j43473658970188_1_alg».proof.Proof.Transform2
import proofs.«123351_j43473658970188_1_alg».proof.Proof.Layer2
import proofs.«123351_j43473658970188_1_alg».proof.Proof.Head

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The reference computes the degrees and the edge weights once per layer: the same terms -/

/-- The second layer's squared inverse root degrees are the first layer's. -/
theorem degrees_again (x1 : (⟨Cert.ReferenceIdeal.S2x1600000, .i32⟩ : BufTy).Contents (Elt Ideal)) :
    val_main_v41 (F := Ideal) x1 = val_main_v87 (F := Ideal) x1 := rfl
/-- The second layer's edge weights are the first layer's. -/
theorem weights_again (x1 : (⟨Cert.ReferenceIdeal.S2x1600000, .i32⟩ : BufTy).Contents (Elt Ideal)) :
    val_main_v27 (F := Ideal) x1 = val_main_v73 (F := Ideal) x1 := rfl

/-! ## After the third host stretch -/

/-- The second transform's bias row is zero. -/
theorem w5_v48 (c : Dev nD) (j) : @Eq EReal (V5 m ρ c main_v48 j) 0 := by
  have h : W5 m ρ c (Proc.devRef .tc main_v48) = shapeCast S1x32 (broadcastInDim S32 ![] bcast_S_S32 (constant (F := Ideal) S_ .f32 0x00000000#32)) shapeCasts_S32_S1x32 := by
    show StableHlo.after hostOps2 (W4 m ρ c) (Proc.devRef .tc main_v48) = _
    after_results_simp <;> rfl
  show @Eq EReal (W5 m ρ c (Proc.devRef .tc main_v48) j) 0
  rw [h]
  exact Ideal.ofBits_zero_f32
theorem w5_v46 (c : Dev nD) : W5 m ρ c (Proc.devRef .tc main_v46) = val_main_v49 (F := Ideal) (a0 m c) (a1 m c) (a2 m c) (a3 m c) :=
  (show StableHlo.after hostOps2 (W4 m ρ c) (Proc.devRef .tc main_v46) = W4 m ρ c (Proc.devRef .tc main_v46) by after_results_simp).trans (w4_v46 m ρ c)
theorem w5_v1 (c : Dev nD) : W5 m ρ c (Proc.devRef .tc main_v1) = val_main_v1 (F := Ideal) (a1 m c) :=
  (show StableHlo.after hostOps2 (W4 m ρ c) (Proc.devRef .tc main_v1) = W4 m ρ c (Proc.devRef .tc main_v1) by after_results_simp).trans (w4_v1 m ρ c)
theorem w5_v3 (c : Dev nD) : W5 m ρ c (Proc.devRef .tc main_v3) = val_main_v3 (F := Ideal) (a1 m c) :=
  (show StableHlo.after hostOps2 (W4 m ρ c) (Proc.devRef .tc main_v3) = W4 m ρ c (Proc.devRef .tc main_v3) by after_results_simp).trans (w4_v3 m ρ c)
theorem w5_v12 (c : Dev nD) : W5 m ρ c (Proc.devRef .tc main_v12) = val_main_v41 (F := Ideal) (a1 m c) :=
  (show StableHlo.after hostOps2 (W4 m ρ c) (Proc.devRef .tc main_v12) = W4 m ρ c (Proc.devRef .tc main_v12) by after_results_simp).trans (w4_v12 m ρ c)
theorem w5_v27 (c : Dev nD) : W5 m ρ c (Proc.devRef .tc main_v27) = val_main_v27 (F := Ideal) (a1 m c) :=
  (show StableHlo.after hostOps2 (W4 m ρ c) (Proc.devRef .tc main_v27) = W4 m ρ c (Proc.devRef .tc main_v27) by after_results_simp).trans (w4_v27 m ρ c)
theorem w5_arg4 (c : Dev nD) : W5 m ρ c (Proc.devRef .tc main_arg4) = a4 m c :=
  (show StableHlo.after hostOps2 (W4 m ρ c) (Proc.devRef .tc main_arg4) = W4 m ρ c (Proc.devRef .tc main_arg4) by after_results_simp).trans (w4_arg4 m ρ c)
theorem w5_arg5 (c : Dev nD) : W5 m ρ c (Proc.devRef .tc main_arg5) = a5 m c :=
  (show StableHlo.after hostOps2 (W4 m ρ c) (Proc.devRef .tc main_arg5) = W4 m ρ c (Proc.devRef .tc main_arg5) by after_results_simp).trans (w4_arg5 m ρ c)
theorem w5_arg6 (c : Dev nD) : W5 m ρ c (Proc.devRef .tc main_arg6) = a6 m c :=
  (show StableHlo.after hostOps2 (W4 m ρ c) (Proc.devRef .tc main_arg6) = W4 m ρ c (Proc.devRef .tc main_arg6) by after_results_simp).trans (w4_arg6 m ρ c)
theorem w5_arg7 (c : Dev nD) : W5 m ρ c (Proc.devRef .tc main_arg7) = a7 m c :=
  (show StableHlo.after hostOps2 (W4 m ρ c) (Proc.devRef .tc main_arg7) = W4 m ρ c (Proc.devRef .tc main_arg7) by after_results_simp).trans (w4_arg7 m ρ c)

/-! ## After region 2 -/

/-- Region 2 leaves the product of the first hidden layer and the second weight. -/
theorem w6_v49 (c : Dev nD) : W6 m ρ c (Proc.devRef .tc main_v49) = val_main_v50 (F := Ideal) (a0 m c) (a1 m c) (a2 m c) (a3 m c) (a4 m c) := by
  refine (W6_arr m ρ c 3).trans ((Transform2.value (V5 m ρ) c (w5_v48 m ρ c)).trans ?_)
  show Transform2.prod (W5 m ρ c (Proc.devRef .tc main_v46)) (W5 m ρ c (Proc.devRef .tc main_arg4)) = _
  rw [w5_v46, w5_arg4]
  rfl
theorem w6_v1 (c : Dev nD) : W6 m ρ c (Proc.devRef .tc main_v1) = val_main_v1 (F := Ideal) (a1 m c) :=
  (W6_of_ne m ρ c main_v1 (by decide)).trans (w5_v1 m ρ c)
theorem w6_v3 (c : Dev nD) : W6 m ρ c (Proc.devRef .tc main_v3) = val_main_v3 (F := Ideal) (a1 m c) :=
  (W6_of_ne m ρ c main_v3 (by decide)).trans (w5_v3 m ρ c)
theorem w6_v12 (c : Dev nD) : W6 m ρ c (Proc.devRef .tc main_v12) = val_main_v41 (F := Ideal) (a1 m c) :=
  (W6_of_ne m ρ c main_v12 (by decide)).trans (w5_v12 m ρ c)
theorem w6_v27 (c : Dev nD) : W6 m ρ c (Proc.devRef .tc main_v27) = val_main_v27 (F := Ideal) (a1 m c) :=
  (W6_of_ne m ρ c main_v27 (by decide)).trans (w5_v27 m ρ c)
theorem w6_arg5 (c : Dev nD) : W6 m ρ c (Proc.devRef .tc main_arg5) = a5 m c :=
  (W6_of_ne m ρ c main_arg5 (by decide)).trans (w5_arg5 m ρ c)
theorem w6_arg6 (c : Dev nD) : W6 m ρ c (Proc.devRef .tc main_arg6) = a6 m c :=
  (W6_of_ne m ρ c main_arg6 (by decide)).trans (w5_arg6 m ρ c)
theorem w6_arg7 (c : Dev nD) : W6 m ρ c (Proc.devRef .tc main_arg7) = a7 m c :=
  (W6_of_ne m ρ c main_arg7 (by decide)).trans (w5_arg7 m ρ c)

/-! ## After the fourth host stretch -/

/-- The second layer's aggregated messages. -/
theorem w7_v62 (c : Dev nD) : W7 m ρ c (Proc.devRef .tc main_v62) = val_main_v86 (F := Ideal) (a0 m c) (a1 m c) (a2 m c) (a3 m c) (a4 m c) := by
  show StableHlo.after hostOps3 (W6 m ρ c) (Proc.devRef .tc main_v62) = _
  after_results_simp
  rw [w6_v49, w6_v1, w6_v3, w6_v27, weights_again]
  rfl
/-- The squared inverse root degrees as a column. -/
theorem w7_v64 (c : Dev nD) (r : Fin 50000) : @Eq EReal (V7 m ρ c main_v64 (ix2 r 0)) (val_main_v87 (F := Ideal) (a1 m c) (ix1 r)) := by
  have h : W7 m ρ c (Proc.devRef .tc main_v64) = shapeCast S50000x1 (W6 m ρ c (Proc.devRef .tc main_v12)) shapeCasts_S50000_S50000x1 := by
    show StableHlo.after hostOps3 (W6 m ρ c) (Proc.devRef .tc main_v64) = _
    after_results_simp <;> rfl
  show @Eq EReal (W7 m ρ c (Proc.devRef .tc main_v64) (ix2 r 0)) _
  rw [h, w6_v12, degrees_again]
  exact Cert.Lib.shapeCast_a_a1_apply (val_main_v87 (F := Ideal) (a1 m c)) shapeCasts_S50000_S50000x1 r 0
/-- The second layer's bias as a row. -/
theorem w7_v63 (c : Dev nD) (q : Fin 32) : @Eq EReal (V7 m ρ c main_v63 (ix2 0 q)) (a5 m c (ix1 q)) := by
  have h : W7 m ρ c (Proc.devRef .tc main_v63) = shapeCast S1x32 (W6 m ρ c (Proc.devRef .tc main_arg5)) shapeCasts_S32_S1x32 := by
    show StableHlo.after hostOps3 (W6 m ρ c) (Proc.devRef .tc main_v63) = _
    after_results_simp <;> rfl
  show @Eq EReal (W7 m ρ c (Proc.devRef .tc main_v63) (ix2 0 q)) _
  rw [h, w6_arg5]
  exact Cert.Lib.shapeCast_a_1a_apply (a5 m c) shapeCasts_S32_S1x32 0 q
theorem w7_v49 (c : Dev nD) : W7 m ρ c (Proc.devRef .tc main_v49) = val_main_v50 (F := Ideal) (a0 m c) (a1 m c) (a2 m c) (a3 m c) (a4 m c) :=
  (show StableHlo.after hostOps3 (W6 m ρ c) (Proc.devRef .tc main_v49) = W6 m ρ c (Proc.devRef .tc main_v49) by after_results_simp).trans (w6_v49 m ρ c)
theorem w7_arg6 (c : Dev nD) : W7 m ρ c (Proc.devRef .tc main_arg6) = a6 m c :=
  (show StableHlo.after hostOps3 (W6 m ρ c) (Proc.devRef .tc main_arg6) = W6 m ρ c (Proc.devRef .tc main_arg6) by after_results_simp).trans (w6_arg6 m ρ c)
theorem w7_arg7 (c : Dev nD) : W7 m ρ c (Proc.devRef .tc main_arg7) = a7 m c :=
  (show StableHlo.after hostOps3 (W6 m ρ c) (Proc.devRef .tc main_arg7) = W6 m ρ c (Proc.devRef .tc main_arg7) by after_results_simp).trans (w6_arg7 m ρ c)

/-! ## After region 3 -/

/-- Region 3 leaves the second hidden layer. -/
theorem w8_v65 (c : Dev nD) : W8 m ρ c (Proc.devRef .tc main_v65) = val_main_v95 (F := Ideal) (a0 m c) (a1 m c) (a2 m c) (a3 m c) (a4 m c) (a5 m c) := by
  refine (W8_arr m ρ c 4).trans ((Layer2.value (V7 m ρ) c (val_main_v87 (F := Ideal) (a1 m c)) (a5 m c) (w7_v64 m ρ c) (w7_v63 m ρ c)).trans ?_)
  show Layer2.layer (W7 m ρ c (Proc.devRef .tc main_v62)) (W7 m ρ c (Proc.devRef .tc main_v49)) _ _ = _
  rw [w7_v62, w7_v49]
  rfl
theorem w8_arg6 (c : Dev nD) : W8 m ρ c (Proc.devRef .tc main_arg6) = a6 m c :=
  (W8_of_ne m ρ c main_arg6 (by decide)).trans (w7_arg6 m ρ c)
theorem w8_arg7 (c : Dev nD) : W8 m ρ c (Proc.devRef .tc main_arg7) = a7 m c :=
  (W8_of_ne m ρ c main_arg7 (by decide)).trans (w7_arg7 m ρ c)

/-! ## After the last host stretch -/

/-- The head's one-entry bias, reshaped: every entry of the buffer is that entry. -/
theorem w9_v66 (c : Dev nD) (j) : @Eq EReal (V9 m ρ c main_v66 j) (a7 m c (ix1 0)) := by
  have h : W9 m ρ c (Proc.devRef .tc main_v66) = shapeCast S1x1 (W8 m ρ c (Proc.devRef .tc main_arg7)) shapeCasts_S1_S1x1 := by
    show StableHlo.after hostOps4 (W8 m ρ c) (Proc.devRef .tc main_v66) = _
    after_results_simp <;> rfl
  obtain ⟨u, v, rfl⟩ : ∃ (u v : Fin 1), j = ix2 u v := ⟨j 0, j 1, eq_ix2 j⟩
  show @Eq EReal (W9 m ρ c (Proc.devRef .tc main_v66) (ix2 u v)) _
  rw [h, w8_arg7, Subsingleton.elim u 0]
  exact Cert.Lib.shapeCast_a_a1_apply (a7 m c) shapeCasts_S1_S1x1 0 v
theorem w9_v65 (c : Dev nD) : W9 m ρ c (Proc.devRef .tc main_v65) = val_main_v95 (F := Ideal) (a0 m c) (a1 m c) (a2 m c) (a3 m c) (a4 m c) (a5 m c) :=
  (show StableHlo.after hostOps4 (W8 m ρ c) (Proc.devRef .tc main_v65) = W8 m ρ c (Proc.devRef .tc main_v65) by after_results_simp).trans (w8_v65 m ρ c)
theorem w9_arg6 (c : Dev nD) : W9 m ρ c (Proc.devRef .tc main_arg6) = a6 m c :=
  (show StableHlo.after hostOps4 (W8 m ρ c) (Proc.devRef .tc main_arg6) = W8 m ρ c (Proc.devRef .tc main_arg6) by after_results_simp).trans (w8_arg6 m ρ c)

/-! ## After region 4: the result -/

/-- Region 4 leaves the reference's result. -/
theorem w10_v67 (c : Dev nD) : W10 m ρ c (Proc.devRef .tc main_v67) = val_main_v99 (F := Ideal) (a0 m c) (a1 m c) (a2 m c) (a3 m c) (a4 m c) (a5 m c) (a6 m c) (a7 m c) := by
  refine (W10_arr m ρ c 3).trans ((Head.value (V9 m ρ) c (a7 m c) (w9_v66 m ρ c)).trans ?_)
  show Head.head (W9 m ρ c (Proc.devRef .tc main_v65)) (W9 m ρ c (Proc.devRef .tc main_arg6)) (a7 m c) = _
  rw [w9_v65, w9_arg6]
  rfl

end Cert.KernelIdeal.Stages

end
-- ==== Proof.lean ====
/-
  A two-layer graph convolution with a linear head, its three matrix products and two pointwise epilogues as
  row-tiled kernels and its edge gathers and scatter-additions on the host, against the same network written with
  whole-array operations.

  Both programs compute, from the edge list, the source and destination rows, the degrees deg = 1 + (edges into the
  row), the inverse roots deg^(-1/2), the edge weights as the product of the two ends' inverse roots; per layer
  H = X · W, the messages H[src] · weight summed into their destination rows, and
  max ((messages + H · deg^(-1)) + b, 0); and last (second hidden layer) · Wh + bh. Over the extended reals the two
  differ only in how the arrays are cut: the kernel's products run block by block over 10000 rows into a zero
  accumulator plus a zero bias row (a + 0 = a; a change of float format is the identity), its epilogues read the
  degree column and the bias row through reshapes where the reference broadcasts them, and the reference computes
  the degrees and the edge weights once per layer from the same edge list. No law used here needs the inputs finite.

  The frames of the two kernels are the generated ones, the reference's frame is its generated run with the result
  dropped, the idealization rewrote nothing, and the value claim reads the kernel's result array off the last
  boundary of its run (Proof/KernelRun, Proof/BoundaryA, Proof/BoundaryB over the per-region arrays of
  Proof/Transform1, Layer1, Transform2, Layer2, Head) as the reference's result stage of the launch arguments.
-/
import proofs.«123351_j43473658970188_1_alg».proof.Defs
import proofs.«123351_j43473658970188_1_alg».proof.Proof.Gen.Kernel
import proofs.«123351_j43473658970188_1_alg».proof.Proof.Gen.Kernel.Frame
import proofs.«123351_j43473658970188_1_alg».proof.Proof.Gen.KernelIdeal
import proofs.«123351_j43473658970188_1_alg».proof.Proof.Gen.KernelIdeal.Frame
import proofs.«123351_j43473658970188_1_alg».proof.Proof.Gen.ReferenceIdeal
import proofs.«123351_j43473658970188_1_alg».proof.Proof.Gen.ReferenceIdeal.Run
import proofs.«123351_j43473658970188_1_alg».proof.Proof.Gen.ReferenceIdeal.Read
import proofs.«123351_j43473658970188_1_alg».proof.Proof.Gen.Pre_finite_inputs
import proofs.«123351_j43473658970188_1_alg».proof.Proof.KernelRun
import proofs.«123351_j43473658970188_1_alg».proof.Proof.BoundaryB
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result stage of the (agreeing) arguments in their result buffers. -/
theorem algebraic : Cert.algebraic_KernelIdeal_ReferenceIdeal := by
  intro m ρ m' ρ' _ hagree
  refine ⟨fun c => Cert.ReferenceIdeal.Read.val_main_v99 (F := Ideal) (Cert.KernelIdeal.Stages.a0 m c) (Cert.KernelIdeal.Stages.a1 m c) (Cert.KernelIdeal.Stages.a2 m c) (Cert.KernelIdeal.Stages.a3 m c)
      (Cert.KernelIdeal.Stages.a4 m c) (Cert.KernelIdeal.Stages.a5 m c) (Cert.KernelIdeal.Stages.a6 m c) (Cert.KernelIdeal.Stages.a7 m c), ?_, ?_⟩
  · refine (θ_run Cert.KernelIdeal.defs _ _).mono (fun r h c => ?_) (Cert.KernelIdeal.RunValue.run_final m ρ)
    exact ⟨(Cert.KernelIdeal.RunValue.final_at m ρ h c Cert.KernelIdeal.main_v67 (by decide)).trans (Cert.KernelIdeal.Stages.w10_v67 m ρ c),
      (Cert.KernelIdeal.RunValue.final_at m ρ h c Cert.KernelIdeal.main_arg0 (by decide)).trans (Cert.KernelIdeal.Gen.W10_main_arg0 m ρ c),
      (Cert.KernelIdeal.RunValue.final_at m ρ h c Cert.KernelIdeal.main_arg1 (by decide)).trans (Cert.KernelIdeal.Gen.W10_main_arg1 m ρ c),
      (Cert.KernelIdeal.RunValue.final_at m ρ h c Cert.KernelIdeal.main_arg2 (by decide)).trans (Cert.KernelIdeal.Gen.W10_main_arg2 m ρ c),
      (Cert.KernelIdeal.RunValue.final_at m ρ h c Cert.KernelIdeal.main_arg3 (by decide)).trans (Cert.KernelIdeal.Gen.W10_main_arg3 m ρ c),
      (Cert.KernelIdeal.RunValue.final_at m ρ h c Cert.KernelIdeal.main_arg4 (by decide)).trans (Cert.KernelIdeal.Gen.W10_main_arg4 m ρ c),
      (Cert.KernelIdeal.RunValue.final_at m ρ h c Cert.KernelIdeal.main_arg5 (by decide)).trans (Cert.KernelIdeal.Gen.W10_main_arg5 m ρ c),
      (Cert.KernelIdeal.RunValue.final_at m ρ h c Cert.KernelIdeal.main_arg6 (by decide)).trans (Cert.KernelIdeal.Gen.W10_main_arg6 m ρ c),
      (Cert.KernelIdeal.RunValue.final_at m ρ h c Cert.KernelIdeal.main_arg7 (by decide)).trans (Cert.KernelIdeal.Gen.W10_main_arg7 m ρ c)⟩
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v99_eq, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
